-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S256x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S256x128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S2 : Shape := ⟨1, ![2]⟩
abbrev S5000x256 : Shape := ⟨2, ![5000, 256]⟩

abbrev nBuf : Space → Nat
  | .hbm => 126
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S1x200000, .i32⟩
  | .hbm, ⟨85, _⟩ => ⟨S200000, .i32⟩
  | .hbm, ⟨86, _⟩ => ⟨S1x200000, .i32⟩
  | .hbm, ⟨87, _⟩ => ⟨S200000, .i32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S200000x128, .f32⟩
  | .hbm, ⟨97, _⟩ => ⟨S_, .i32⟩
  | .hbm, ⟨98, _⟩ => ⟨S200000, .i32⟩
  | .hbm, ⟨99, _⟩ => ⟨S200000, .i1⟩
  | .hbm, ⟨100, _⟩ => ⟨S_, .i32⟩
  | .hbm, ⟨101, _⟩ => ⟨S200000, .i32⟩
  | .hbm, ⟨102, _⟩ => ⟨S200000, .i32⟩
  | .hbm, ⟨103, _⟩ => ⟨S200000, .i32⟩
  | .hbm, ⟨104, _⟩ => ⟨S200000x1, .i32⟩
  | .hbm, ⟨105, _⟩ => ⟨S200000x128, .f32⟩
  | .hbm, ⟨106, _⟩ => ⟨S200000x256, .f32⟩
  | .hbm, ⟨107, _⟩ => ⟨S_, .f32⟩
  | .hbm, ⟨108, _⟩ => ⟨S128x128, .f32⟩
  | .hbm, ⟨109, _⟩ => ⟨S128, .f32⟩
  | .hbm, ⟨110, _⟩ => ⟨S_, .i32⟩
  | .hbm, ⟨111, _⟩ => ⟨S1, .i32⟩
  | .hbm, ⟨112, _⟩ => ⟨S128x128, .f32⟩
  | .hbm, ⟨113, _⟩ => ⟨S_, .f32⟩
  | .hbm, ⟨114, _⟩ => ⟨S1x128, .f32⟩
  | .hbm, ⟨115, _⟩ => ⟨S_, .f32⟩
  | .hbm, ⟨116, _⟩ => ⟨S_, .i32⟩
  | .hbm, ⟨117, _⟩ => ⟨S1, .i32⟩
  | .hbm, ⟨118, _⟩ => ⟨S_, .i32⟩
  | .hbm, ⟨119, _⟩ => ⟨S1, .i32⟩
  | .hbm, ⟨120, _⟩ => ⟨S2, .i32⟩
  | .hbm, ⟨121, _⟩ => ⟨S1x128, .f32⟩
  | .hbm, ⟨122, _⟩ => ⟨S1x128, .f32⟩
  | .hbm, ⟨123, _⟩ => ⟨S200000x128, .f32⟩
  | .hbm, ⟨124, _⟩ => ⟨S200000x1, .f32⟩
  | .hbm, ⟨125, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x256, .f32⟩
  | .local _ .vmem, ⟨28, _⟩ => ⟨S5000x256, .f32⟩
  | .local _ .vmem, ⟨29, _⟩ => ⟨S256x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S128x128_S128x128 : S128x128.ShapeCasts S128x128
  slices_S200000x128_S200000x1_0_0 : S200000x128.Slices ![0, 0] S200000x1
  shapeCasts_S200000x1_S200000 : S200000x1.ShapeCasts S200000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  scatter_S128x128_S1_S128_0_1_1_0_wf : ScatterDims.WF S128x128 S1 S128 [0] [1] [1] 0
  scatter_S1x128_S2_S__n_01_01_0_wf : ScatterDims.WF S1x128 S2 S_ [] [0, 1] [0, 1] 0
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S200000x256.size a
  hwx3_0 : ∀ i : grid3.Coords, EltTy.bits .f32 = 32 ∨ (Rect.block (s := S200000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S256x128, .f32⟩
  | 13 => ⟨S128, .f32⟩
  | 14 => ⟨S128x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S1x200000, .i32⟩
  | 120 => ⟨S200000, .i32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S50000x128, .f32⟩

abbrev hbmTy0_1 (i : Nat) : BufTy := match i % 128 with
  | 0 => ⟨S200000, .i32⟩
  | 1 => ⟨S200000, .i32⟩
  | 2 => ⟨S200000x1, .i32⟩
  | 3 => ⟨S200000x128, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x128, .f32⟩
  | 13 => ⟨S200000x256, .f32⟩
  | 14 => ⟨S200000x128, .f32⟩
  | 15 => ⟨S1x128, .f32⟩
  | 16 => ⟨S200000x128, .f32⟩
  | 17 => ⟨S200000x128, .f32⟩
  | 18 => ⟨S_, .f32⟩
  | 19 => ⟨S200000x128, .f32⟩
  | 20 => ⟨S200000x128, .f32⟩
  | 21 => ⟨S200000x1, .f32⟩
  | 22 => ⟨S1x1, .f32⟩
  | 23 => ⟨S200000x1, .f32⟩
  | 24 => ⟨S200000x1, .f32⟩
  | 25 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_c_17 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_call2_cst : Ref sig .tc := ⟨.hbm, 146, rfl⟩
abbrev main_call2_v0 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel program's run with its result named.

  @main is nine segments: five stretches of host operations and, between them, four pipelined regions.  Every weakly
  fair execution terminates without a fault, and in the final state every buffer that is not scoped to a region holds
  the contents obtained by folding the segments over the launch memory: a stretch applies its operations in order, a
  region leaves each of its output arrays at what its grid points wrote back and every other buffer as it found it.
  Read at the result buffer this names the program's result; read at an argument it gives the launch contents.
-/
import proofs.«164234_j4964982194352_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents, and every argument array as launched. -/
theorem run_named : θ_run defs (onTc (τ := τ) (main (F := F))) ⟨m, fun _ => 0, ρ⟩ (fun r => ∀ c : Dev nD,
      r.2.mem ((c.tc : Thread nD τ).loc main_v87) = W9 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v87 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.Whole

end
-- ==== Proof.LinkSage.lean ====
/-
  A three-layer mean-aggregation graph network followed by a link decoder, as functions of whole arrays over the
  extended reals.

  One layer combines, for every node `p` and output feature `q`, the node's aggregated neighbourhood row and its own
  row: `(∑ k, mean (p, k) * wl (k, q) + r (0, q)) + ∑ k, h (p, k) * wr (k, q)`, optionally followed by the maximum with
  zero.  The decoder scores a row `p` of concatenated node pairs: `∑ j, max (∑ k, pair (p, k) * w1 (k, j) + r1 (0, j)) 0
  * wcol j + b2`.  Row `p` of each result depends on row `p` of the row-indexed operands only, so a computation that cuts
  the rows into blocks produces the blocks of these functions; no sum is reordered and nothing needs to be finite.

  The mean itself is the neighbourhood sum divided by `c = max (count, 1)`.  Dividing by `c` and multiplying by the
  quotient `1 / c` agree on every extended real as soon as `c ≠ 0`: both are the product with the inverse of `c`.
-/
import Idealize.ShloMosaic.PureOps.Ideal
import Idealize.ShloMosaic.PureOps.Ideal.Laws
import Idealize.ShloMosaic.Lib.ValueIdx

noncomputable section

namespace Cert.LinkSage

open Idealize.ShloMosaic Idealize.ShloMosaic.ValueIdx

/-- The float word zero, read at the ideal instance. It is the same word wherever it occurs and is never evaluated. -/
abbrev zeroWord : EReal := Ideal.ofBits .f32 0x00000000#32

variable {M K N H : ℕ}

/-- `(mean · wl + r) + h · wr`, the row `r` added to every row of the first product. -/
def combine (mean h : FVec Ideal ⟨2, ![M, K]⟩ .f32) (wl : FVec Ideal ⟨2, ![K, N]⟩ .f32) (r : FVec Ideal ⟨2, ![1, N]⟩ .f32)
    (wr : FVec Ideal ⟨2, ![K, N]⟩ .f32) : FVec Ideal ⟨2, ![M, N]⟩ .f32 := fun i =>
  (∑ k : Fin K, mean (ix2 (i 0) k) * wl (ix2 k (i 1)) + r (ix2 (0 : Fin 1) (i 1)))
    + ∑ k : Fin K, h (ix2 (i 0) k) * wr (ix2 k (i 1))

/-- The same followed by the maximum with zero. -/
def combineRelu (mean h : FVec Ideal ⟨2, ![M, K]⟩ .f32) (wl : FVec Ideal ⟨2, ![K, N]⟩ .f32) (r : FVec Ideal ⟨2, ![1, N]⟩ .f32)
    (wr : FVec Ideal ⟨2, ![K, N]⟩ .f32) : FVec Ideal ⟨2, ![M, N]⟩ .f32 := fun i =>
  max (combine mean h wl r wr i) zeroWord

theorem combine_apply (mean h : FVec Ideal ⟨2, ![M, K]⟩ .f32) (wl : FVec Ideal ⟨2, ![K, N]⟩ .f32)
    (r : FVec Ideal ⟨2, ![1, N]⟩ .f32) (wr : FVec Ideal ⟨2, ![K, N]⟩ .f32) (p : Fin M) (q : Fin N) :
    combine mean h wl r wr (ix2 p q)
      = (∑ k : Fin K, mean (ix2 p k) * wl (ix2 k q) + r (ix2 (0 : Fin 1) q)) + ∑ k : Fin K, h (ix2 p k) * wr (ix2 k q) := rfl

theorem combineRelu_apply (mean h : FVec Ideal ⟨2, ![M, K]⟩ .f32) (wl : FVec Ideal ⟨2, ![K, N]⟩ .f32)
    (r : FVec Ideal ⟨2, ![1, N]⟩ .f32) (wr : FVec Ideal ⟨2, ![K, N]⟩ .f32) (p : Fin M) (q : Fin N) :
    combineRelu mean h wl r wr (ix2 p q)
      = max ((∑ k : Fin K, mean (ix2 p k) * wl (ix2 k q) + r (ix2 (0 : Fin 1) q))
          + ∑ k : Fin K, h (ix2 p k) * wr (ix2 k q)) zeroWord := rfl

/-- The hidden layer of the decoder: `max (pair · w1 + r1) 0`. -/
def hidden (pair : FVec Ideal ⟨2, ![M, K]⟩ .f32) (w1 : FVec Ideal ⟨2, ![K, H]⟩ .f32) (r1 : FVec Ideal ⟨2, ![1, H]⟩ .f32) :
    FVec Ideal ⟨2, ![M, H]⟩ .f32 := fun i =>
  max (∑ k : Fin K, pair (ix2 (i 0) k) * w1 (ix2 k (i 1)) + r1 (ix2 (0 : Fin 1) (i 1))) zeroWord

theorem hidden_apply (pair : FVec Ideal ⟨2, ![M, K]⟩ .f32) (w1 : FVec Ideal ⟨2, ![K, H]⟩ .f32)
    (r1 : FVec Ideal ⟨2, ![1, H]⟩ .f32) (p : Fin M) (j : Fin H) :
    hidden pair w1 r1 (ix2 p j) = max (∑ k : Fin K, pair (ix2 p k) * w1 (ix2 k j) + r1 (ix2 (0 : Fin 1) j)) zeroWord := rfl

/-- The decoder's output layer with a width-`N` weight and bias row: `hidden · w2 + r2`. -/
def decode (pair : FVec Ideal ⟨2, ![M, K]⟩ .f32) (w1 : FVec Ideal ⟨2, ![K, H]⟩ .f32) (r1 : FVec Ideal ⟨2, ![1, H]⟩ .f32)
    (w2 : FVec Ideal ⟨2, ![H, N]⟩ .f32) (r2 : FVec Ideal ⟨2, ![1, N]⟩ .f32) : FVec Ideal ⟨2, ![M, N]⟩ .f32 := fun i =>
  ∑ j : Fin H, hidden pair w1 r1 (ix2 (i 0) j) * w2 (ix2 j (i 1)) + r2 (ix2 (0 : Fin 1) (i 1))

theorem decode_apply (pair : FVec Ideal ⟨2, ![M, K]⟩ .f32) (w1 : FVec Ideal ⟨2, ![K, H]⟩ .f32)
    (r1 : FVec Ideal ⟨2, ![1, H]⟩ .f32) (w2 : FVec Ideal ⟨2, ![H, N]⟩ .f32) (r2 : FVec Ideal ⟨2, ![1, N]⟩ .f32)
    (p : Fin M) (u : Fin N) :
    decode pair w1 r1 w2 r2 (ix2 p u)
      = ∑ j : Fin H, hidden pair w1 r1 (ix2 p j) * w2 (ix2 j u) + r2 (ix2 (0 : Fin 1) u) := rfl

/-- The score of pair `p`: the decoder's output with the one weight column `wcol` and the bias `b2`. -/
def score (pair : FVec Ideal ⟨2, ![M, K]⟩ .f32) (w1 : FVec Ideal ⟨2, ![K, H]⟩ .f32) (r1 : FVec Ideal ⟨2, ![1, H]⟩ .f32)
    (wcol : Fin H → EReal) (b2 : EReal) : FVec Ideal ⟨1, ![M]⟩ .f32 := fun i =>
  ∑ j : Fin H, hidden pair w1 r1 (ix2 (i 0) j) * wcol j + b2

/-- Multiplying by the quotient `1 / c` is dividing by `c`, for every extended real `a` and every `c ≠ 0`
    (infinite `c` included: both sides are the product with the inverse of `c`). -/
theorem mul_one_div (a c : EReal) (hc : c ≠ 0) : a * Ideal.div 1 c = Ideal.div a c := by
  rw [Ideal.div, Ideal.div, if_neg hc, if_neg hc, one_mul]

end Cert.LinkSage

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.SageTile.lean ====
/-
  The tile body of a graph layer is the layer's combination at the tile's height.

  One tile of a layer holds 5000 rows of the aggregated-neighbourhood array and of the node array, the two
  128 by 128 weight matrices and the bias row. The body multiplies the aggregated rows by the first matrix
  into a zero accumulator, adds the bias row to every row, multiplies the node rows by the second matrix into
  another zero accumulator, adds the two, and (in the first two layers) takes the maximum with zero. Over the
  extended reals the roundings on the way into the products are the identity and a product into the zero
  accumulator is the plain sum over the contracted coordinate, so at every index the body is, term for term,
  `(∑ k, mean (p, k) * wl (k, q) + r (0, q)) + ∑ k, h (p, k) * wr (k, q)` (followed by the maximum with zero):
  the layer's combination of a 5000-row array. No sum is reordered.
-/
import proofs.«164234_j4964982194352_1_alg».proof.Proof.Gen.KernelIdeal.Skeleton
import proofs.«164234_j4964982194352_1_alg».proof.Proof.LinkSage
import proofs.«164234_j4964982194352_1_alg».proof.Proof.LibPlainDot
import Idealize.ShloMosaic.Lib.ValueLayout
import Idealize.ShloMosaic.Lib.Pipeline.Value

noncomputable section

namespace Cert.KernelIdeal.SageTile

open Cert.KernelIdeal Cert.KernelIdeal.Gen Idealize.ShloMosaic Idealize.ShloMosaic.ValueIdx

/-- The tile's products contract the left operand's second axis with the right operand's first. -/
theorem dims_plain : dot_S5000x128_S128x128_S5000x128_1_0_0_1_n_n = DotDims.plain 5000 128 128 := rfl

/-- A tile's rows times a weight matrix, into the zero accumulator, at `(p, q)`: the roundings on the way in
    are the identity, so it is the sum over the contracted coordinate of the unrounded entries. -/
theorem product_apply (x : FVec Ideal S5000x128 .f32) (w : FVec Ideal S128x128 .f32) (p : Fin 5000) (q : Fin 128) :
    matmul dot_S5000x128_S128x128_S5000x128_1_0_0_1_n_n none (truncf .bf16 x bitsLt_bf16_f32)
        (truncf .bf16 w bitsLt_bf16_f32) (constant S5000x128 .f32 0x00000000#32) (ix2 p q)
      = ∑ k : Fin 128, x (ix2 p k) * w (ix2 k q) :=
  PlainDot.matmul_zero_apply _ dims_plain none _ _ p q

/-- The bias row spread over the tile's rows, at `(p, q)`, is the row's entry `q`. -/
theorem bias_apply (r : FVec Ideal S1x128 .f32) (p : Fin 5000) (q : Fin 128) :
    broadcastTo S5000x128 r broadcasts_S1x128_S5000x128 (ix2 p q) = r (ix2 (0 : Fin 1) q) :=
  broadcastTo_1b_ab_apply r broadcasts_S1x128_S5000x128 p q

/-- The first layer's tile body is the combination followed by the maximum with zero. -/
theorem pay0 (x0 x1 : Vec Ideal S5000x128 .f32) (wl wr : Vec Ideal S128x128 .f32) (r : Vec Ideal S1x128 .f32) :
    Gen.k0_pay1 (F := Ideal) x0 x1 wl wr r = Cert.LinkSage.combineRelu x0 x1 wl r wr := by
  funext j
  obtain ⟨p, q, rfl⟩ : ∃ (p : Fin 5000) (q : Fin 128), j = ix2 p q := ⟨j 0, j 1, eq_ix2 j⟩
  rw [Cert.LinkSage.combineRelu_apply]
  unfold Gen.k0_pay1
  rw [shapeCast_self, shapeCast_self]
  show max ((matmul _ none _ _ _ (ix2 p q) + broadcastTo S5000x128 _ _ (ix2 p q)) + matmul _ none _ _ _ (ix2 p q)) _ = _
  rw [product_apply, product_apply, bias_apply]
  rfl

/-- The second layer's tile body is the combination followed by the maximum with zero. -/
theorem pay1 (x0 x1 : Vec Ideal S5000x128 .f32) (wl wr : Vec Ideal S128x128 .f32) (r : Vec Ideal S1x128 .f32) :
    Gen.k1_pay1 (F := Ideal) x0 x1 wl wr r = Cert.LinkSage.combineRelu x0 x1 wl r wr := by
  funext j
  obtain ⟨p, q, rfl⟩ : ∃ (p : Fin 5000) (q : Fin 128), j = ix2 p q := ⟨j 0, j 1, eq_ix2 j⟩
  rw [Cert.LinkSage.combineRelu_apply]
  unfold Gen.k1_pay1
  rw [shapeCast_self, shapeCast_self, shapeCast_self]
  show max ((matmul _ none _ _ _ (ix2 p q) + broadcastTo S5000x128 _ _ (ix2 p q)) + matmul _ none _ _ _ (ix2 p q)) _ = _
  rw [product_apply, product_apply, bias_apply]
  rfl

/-- The third layer's tile body is the combination itself. -/
theorem pay2 (x0 x1 : Vec Ideal S5000x128 .f32) (wl wr : Vec Ideal S128x128 .f32) (r : Vec Ideal S1x128 .f32) :
    Gen.k2_pay1 (F := Ideal) x0 x1 wl wr r = Cert.LinkSage.combine x0 x1 wl r wr := by
  funext j
  obtain ⟨p, q, rfl⟩ : ∃ (p : Fin 5000) (q : Fin 128), j = ix2 p q := ⟨j 0, j 1, eq_ix2 j⟩
  rw [Cert.LinkSage.combine_apply]
  unfold Gen.k2_pay1
  rw [shapeCast_self, shapeCast_self, shapeCast_self]
  show (matmul _ none _ _ _ (ix2 p q) + broadcastTo S5000x128 _ _ (ix2 p q)) + matmul _ none _ _ _ (ix2 p q) = _
  rw [product_apply, product_apply, bias_apply]

/-! ## A row of the combination reads one row of each row-indexed operand -/

/-- Two pairs of row-indexed operands, of any heights, that agree on one row each give the same combination on
    those rows, column by column: the combination at `(p, q)` reads row `p` of the two operands and nothing else of
    them. -/
theorem combine_row {M M' : ℕ} (mean h : FVec Ideal ⟨2, ![M, 128]⟩ .f32) (mean' h' : FVec Ideal ⟨2, ![M', 128]⟩ .f32)
    (wl : FVec Ideal ⟨2, ![128, 128]⟩ .f32) (r : FVec Ideal ⟨2, ![1, 128]⟩ .f32) (wr : FVec Ideal ⟨2, ![128, 128]⟩ .f32)
    (i : (⟨2, ![M, 128]⟩ : Shape).Idx) (i' : (⟨2, ![M', 128]⟩ : Shape).Idx) (hq : (i 1).val = (i' 1).val)
    (hm : ∀ k : Fin 128, mean (ix2 (i 0) k) = mean' (ix2 (i' 0) k))
    (hh : ∀ k : Fin 128, h (ix2 (i 0) k) = h' (ix2 (i' 0) k)) :
    Cert.LinkSage.combine mean h wl r wr i = Cert.LinkSage.combine mean' h' wl r wr i' := by
  have e : (i 1 : Fin 128) = i' 1 := Fin.ext hq
  unfold Cert.LinkSage.combine
  rw [e]
  simp only [hm, hh]

/-- The same with the maximum with zero. -/
theorem combineRelu_row {M M' : ℕ} (mean h : FVec Ideal ⟨2, ![M, 128]⟩ .f32) (mean' h' : FVec Ideal ⟨2, ![M', 128]⟩ .f32)
    (wl : FVec Ideal ⟨2, ![128, 128]⟩ .f32) (r : FVec Ideal ⟨2, ![1, 128]⟩ .f32) (wr : FVec Ideal ⟨2, ![128, 128]⟩ .f32)
    (i : (⟨2, ![M, 128]⟩ : Shape).Idx) (i' : (⟨2, ![M', 128]⟩ : Shape).Idx) (hq : (i 1).val = (i' 1).val)
    (hm : ∀ k : Fin 128, mean (ix2 (i 0) k) = mean' (ix2 (i' 0) k))
    (hh : ∀ k : Fin 128, h (ix2 (i 0) k) = h' (ix2 (i' 0) k)) :
    Cert.LinkSage.combineRelu mean h wl r wr i = Cert.LinkSage.combineRelu mean' h' wl r wr i' :=
  congrArg (fun x => max x Cert.LinkSage.zeroWord) (combine_row mean h mean' h' wl r wr i i' hq hm hh)

end Cert.KernelIdeal.SageTile

end
-- ==== Proof.Region0.lean ====
/-
  The first graph layer's region leaves the layer's combination of the whole arrays followed by the maximum with zero.

  The region cuts the 50000 rows of the aggregated-neighbourhood array, of the node array and of the result into
  ten blocks of 5000 rows; the two weight matrices and the bias row are one block each, the same at every point.
  At point `t` the tile body computes the combination of block `t` of the two row-indexed arrays with the whole
  weights and bias. Row `5000 * t + p` of the combination of the whole arrays reads row `5000 * t + p` of the two
  row-indexed arrays and nothing else of them, so what point `t` writes back is block `t` of that one whole-array
  function. The ten blocks tile the result exactly, so the array ends holding the combination everywhere.
-/
import proofs.«164234_j4964982194352_1_alg».proof.Proof.Gen.KernelIdeal.Frame
import proofs.«164234_j4964982194352_1_alg».proof.Proof.SageTile
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The printed index maps, decided over the grid: the three row-indexed windows are at block row `t`, column
    block 0, at point `t`; the weights and the bias row are at block (0, 0) at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight matrix's one block is the whole matrix. -/
theorem left_weight_block (c : Dev nD) (t : Fin cfg0.N) : iblk0 V c 2 t = V c main_arg3 := by
  funext y
  show V c main_arg3 (((cfg0.win 2).blk t).view.emb y) = V c main_arg3 y
  obtain ⟨-, -, -, -, e0, e1, -⟩ := block_indices t
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's one block is the whole row. -/
theorem bias_block (c : Dev nD) (t : Fin cfg0.N) : iblk0 V c 3 t = V c main_v25 := by
  funext y
  show V c main_v25 (((cfg0.win 3).blk t).view.emb y) = V c main_v25 y
  obtain ⟨-, -, -, -, -, -, e0, e1, -⟩ := block_indices t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's one block is the whole matrix. -/
theorem right_weight_block (c : Dev nD) (t : Fin cfg0.N) : iblk0 V c 4 t = V c main_arg5 := by
  funext y
  show V c main_arg5 (((cfg0.win 4).blk t).view.emb y) = V c main_arg5 y
  obtain ⟨-, -, -, -, -, -, -, -, e0, e1, -⟩ := block_indices t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Row `p` of block `t` of the aggregated-neighbourhood array is row `p` of the result's block `t` in the whole array. -/
theorem mean_block_row (c : Dev nD) (t : Fin cfg0.N) (j : S5000x128.Idx) (k : Fin 128) :
    iblk0 V c 0 t (ix2 (j 0) k) = V c main_v24 (ix2 ((((cfg0.win 5).blk t).view.emb j) 0) k) := by
  show V c main_v24 (((cfg0.win 0).blk t).view.emb (ix2 (j 0) k)) = _
  obtain ⟨e0, e1, -, -, -, -, -, -, -, -, e10, e11⟩ := block_indices t
  refine congrArg _ (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 128 + 1 * k.val = k.val; omega

/-- Row `p` of block `t` of the node array is row `p` of the result's block `t` in the whole array. -/
theorem node_block_row (c : Dev nD) (t : Fin cfg0.N) (j : S5000x128.Idx) (k : Fin 128) :
    iblk0 V c 1 t (ix2 (j 0) k) = V c main_arg0 (ix2 ((((cfg0.win 5).blk t).view.emb j) 0) k) := by
  show V c main_arg0 (((cfg0.win 1).blk t).view.emb (ix2 (j 0) k)) = _
  obtain ⟨-, -, e0, e1, -, -, -, -, -, -, e10, e11⟩ := block_indices t
  refine congrArg _ (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 128 + 1 * k.val = k.val; omega

/-- What point `t` writes back is block `t` of the combination of the whole arrays as the region finds them. -/
theorem flushed_eq (c : Dev nD) (t : Fin cfg0.N) :
    (dat0 (F := Ideal) V c).flushed 5 t
      = ((cfg0.win 5).blk t).view.read (Elt Ideal) (Cert.LinkSage.combineRelu (M := 50000) (V c main_v24) (V c main_arg0) (V c main_arg3) (V c main_v25) (V c main_arg5)) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  rw [SageTile.pay0, left_weight_block, bias_block, right_weight_block]
  funext j
  show Cert.LinkSage.combineRelu (M := 5000) (iblk0 V c 0 t) (iblk0 V c 1 t) (V c main_arg3) (V c main_v25) (V c main_arg5) j
    = Cert.LinkSage.combineRelu (M := 50000) (V c main_v24) (V c main_arg0) (V c main_arg3) (V c main_v25) (V c main_arg5) (((cfg0.win 5).blk t).view.emb j)
  refine SageTile.combineRelu_row _ _ _ _ _ _ _ j _ ?_ (mean_block_row V c t j) (node_block_row V c t j)
  obtain ⟨-, -, -, -, -, -, -, -, -, -, -, e11⟩ := block_indices t
  show (j 1).val = win0_5.index t (1 : Fin 2) * 128 + 1 * (j 1).val
  omega

/-- An index of the result is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten blocks tile the result: row `r` is in the block of point `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < grid0.N := by rw [N_0]; omega
  refine ⟨⟨(i 0).val / 5000, hN⟩, flush0_5 _, ?_⟩
  obtain ⟨-, -, -, -, -, -, -, -, -, -, e10, e11⟩ := block_indices ⟨(i 0).val / 5000, hN⟩
  have e10' : win0_5.index ⟨(i 0).val / 5000, hN⟩ (0 : Fin 2) = (i 0).val / 5000 := e10
  rw [mem_block]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; omega

/-- The result array after the region: the combination of the whole arrays as the region finds them. -/
theorem final (c : Dev nD) :
    (dat0 (F := Ideal) V c).arrAt 5 cfg0.N = Cert.LinkSage.combineRelu (M := 50000) (V c main_v24) (V c main_arg0) (V c main_arg3) (V c main_v25) (V c main_arg5) :=
  (dat0 (F := Ideal) V c).arrAt_eq_of_cover 5 (Cert.LinkSage.combineRelu (M := 50000) (V c main_v24) (V c main_arg0) (V c main_arg3) (V c main_v25) (V c main_arg5)) (fun t _ => flushed_eq V c t) covered

end Cert.KernelIdeal.Region0

end
-- ==== Proof.Region1.lean ====
/-
  The second graph layer's region leaves the layer's combination of the whole arrays followed by the maximum with zero.

  The region cuts the 50000 rows of the aggregated-neighbourhood array, of the node array and of the result into
  ten blocks of 5000 rows; the two weight matrices and the bias row are one block each, the same at every point.
  At point `t` the tile body computes the combination of block `t` of the two row-indexed arrays with the whole
  weights and bias. Row `5000 * t + p` of the combination of the whole arrays reads row `5000 * t + p` of the two
  row-indexed arrays and nothing else of them, so what point `t` writes back is block `t` of that one whole-array
  function. The ten blocks tile the result exactly, so the array ends holding the combination everywhere.
-/
import proofs.«164234_j4964982194352_1_alg».proof.Proof.Gen.KernelIdeal.Frame
import proofs.«164234_j4964982194352_1_alg».proof.Proof.SageTile
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The printed index maps, decided over the grid: the three row-indexed windows are at block row `t`, column
    block 0, at point `t`; the weights and the bias row are at block (0, 0) at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first weight matrix's one block is the whole matrix. -/
theorem left_weight_block (c : Dev nD) (t : Fin cfg1.N) : iblk1 V c 2 t = V c main_arg6 := by
  funext y
  show V c main_arg6 (((cfg1.win 2).blk t).view.emb y) = V c main_arg6 y
  obtain ⟨-, -, -, -, e0, e1, -⟩ := block_indices t
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the whole row. -/
theorem bias_block (c : Dev nD) (t : Fin cfg1.N) : iblk1 V c 3 t = V c main_v39 := by
  funext y
  show V c main_v39 (((cfg1.win 3).blk t).view.emb y) = V c main_v39 y
  obtain ⟨-, -, -, -, -, -, e0, e1, -⟩ := block_indices t
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's one block is the whole matrix. -/
theorem right_weight_block (c : Dev nD) (t : Fin cfg1.N) : iblk1 V c 4 t = V c main_arg8 := by
  funext y
  show V c main_arg8 (((cfg1.win 4).blk t).view.emb y) = V c main_arg8 y
  obtain ⟨-, -, -, -, -, -, -, -, e0, e1, -⟩ := block_indices t
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Row `p` of block `t` of the aggregated-neighbourhood array is row `p` of the result's block `t` in the whole array. -/
theorem mean_block_row (c : Dev nD) (t : Fin cfg1.N) (j : S5000x128.Idx) (k : Fin 128) :
    iblk1 V c 0 t (ix2 (j 0) k) = V c main_v38 (ix2 ((((cfg1.win 5).blk t).view.emb j) 0) k) := by
  show V c main_v38 (((cfg1.win 0).blk t).view.emb (ix2 (j 0) k)) = _
  obtain ⟨e0, e1, -, -, -, -, -, -, -, -, e10, e11⟩ := block_indices t
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * k.val = k.val; omega

/-- Row `p` of block `t` of the node array is row `p` of the result's block `t` in the whole array. -/
theorem node_block_row (c : Dev nD) (t : Fin cfg1.N) (j : S5000x128.Idx) (k : Fin 128) :
    iblk1 V c 1 t (ix2 (j 0) k) = V c main_v26 (ix2 ((((cfg1.win 5).blk t).view.emb j) 0) k) := by
  show V c main_v26 (((cfg1.win 1).blk t).view.emb (ix2 (j 0) k)) = _
  obtain ⟨-, -, e0, e1, -, -, -, -, -, -, e10, e11⟩ := block_indices t
  refine congrArg _ (funext fun a => Fin.ext ?_)
  match a with
  | ⟨0, _⟩ => show win1_1.index t (0 : Fin 2) * 5000 + 1 * (j 0).val = win1_5.index t (0 : Fin 2) * 5000 + 1 * (j 0).val; omega
  | ⟨1, _⟩ => show win1_1.index t (1 : Fin 2) * 128 + 1 * k.val = k.val; omega

/-- What point `t` writes back is block `t` of the combination of the whole arrays as the region finds them. -/
theorem flushed_eq (c : Dev nD) (t : Fin cfg1.N) :
    (dat1 (F := Ideal) V c).flushed 5 t
      = ((cfg1.win 5).blk t).view.read (Elt Ideal) (Cert.LinkSage.combineRelu (M := 50000) (V c main_v38) (V c main_v26) (V c main_arg6) (V c main_v39) (V c main_arg8)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  rw [SageTile.pay1, left_weight_block, bias_block, right_weight_block]
  funext j
  show Cert.LinkSage.combineRelu (M := 5000) (iblk1 V c 0 t) (iblk1 V c 1 t) (V c main_arg6) (V c main_v39) (V c main_arg8) j
    = Cert.LinkSage.combineRelu (M := 50000) (V c main_v38) (V c main_v26) (V c main_arg6) (V c main_v39) (V c main_arg8) (((cfg1.win 5).blk t).view.emb j)
  refine SageTile.combineRelu_row _ _ _ _ _ _ _ j _ ?_ (mean_block_row V c t j) (node_block_row V c t j)
  obtain ⟨-, -, -, -, -, -, -, -, -, -, -, e11⟩ := block_indices t
  show (j 1).val = win1_5.index t (1 : Fin 2) * 128 + 1 * (j 1).val
  omega

/-- An index of the result is in point `t`'s block iff each coordinate is in the block's range on its axis. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The ten blocks tile the result: row `r` is in the block of point `r / 5000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < grid1.N := by rw [N_1]; omega
  refine ⟨⟨(i 0).val / 5000, hN⟩, flush1_5 _, ?_⟩
  obtain ⟨-, -, -, -, -, -, -, -, -, -, e10, e11⟩ := block_indices ⟨(i 0).val / 5000, hN⟩
  have e10' : win1_5.index ⟨(i 0).val / 5000, hN⟩ (0 : Fin 2) = (i 0).val / 5000 := e10
  rw [mem_block]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; omega
  | ⟨1, _⟩ => show win1_5.index ⟨(i 0).val / 5000, hN⟩ (1 : Fin 2) * 128 ≤ (i 1).val ∧ (i 1).val < win1_5.index ⟨(i 0).val / 5000, hN⟩ (1 : Fin 2) * 128 + 128; omega

/-- The result array after the region: the combination of the whole arrays as the region finds them. -/
theorem final (c : Dev nD) :
    (dat1 (F := Ideal) V c).arrAt 5 cfg1.N = Cert.LinkSage.combineRelu (M := 50000) (V c main_v38) (V c main_v26) (V c main_arg6) (V c main_v39) (V c main_arg8) :=
  (dat1 (F := Ideal) V c).arrAt_eq_of_cover 5 (Cert.LinkSage.combineRelu (M := 50000) (V c main_v38) (V c main_v26) (V c main_arg6) (V c main_v39) (V c main_arg8)) (fun t _ => flushed_eq V c t) covered

end Cert.KernelIdeal.Region1

end
-- ==== Proof.Region2.lean ====
/-
  The third graph layer's region leaves the layer's combination of the whole arrays.

  The region cuts the 50000 rows of the aggregated-neighbourhood array, of the node array and of the result into
  ten blocks of 5000 rows; the two weight matrices and the bias row are one block each, the same at every point.
  At point `t` the tile body computes the combination of block `t` of the two row-indexed arrays with the whole
  weights and bias. Row `5000 * t + p` of the combination of the whole arrays reads row `5000 * t + p` of the two
  row-indexed arrays and nothing else of them, so what point `t` writes back is block `t` of that one whole-array
  function. The ten blocks tile the result exactly, so the array ends holding the combination everywhere.
-/
import proofs.«164234_j4964982194352_1_alg».proof.Proof.Gen.KernelIdeal.Frame
import proofs.«164234_j4964982194352_1_alg».proof.Proof.SageTile
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The printed index maps, decided over the grid: the three row-indexed windows are at block row `t`, column
    block 0, at point `t`; the weights and the bias row are at block (0, 0) at every point. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first weight matrix's one block is the whole matrix. -/
theorem left_weight_block (c : Dev nD) (t : Fin cfg2.N) : iblk2 V c 2 t = V c main_arg9 := by
  funext y
  show V c main_arg9 (((cfg2.win 2).blk t).view.emb y) = V c main_arg9 y
  obtain ⟨-, -, -, -, e0, e1, -⟩ := block_indices t
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's one block is the whole row. -/
theorem bias_block (c : Dev nD) (t : Fin cfg2.N) : iblk2 V c 3 t = V c main_v53 := by
  funext y
  show V c main_v53 (((cfg2.win 3).blk t).view.emb y) = V c main_v53 y
  obtain ⟨-, -, -, -, -, -, e0, e1, -⟩ := block_indices t
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The second weight matrix's one block is the whole matrix. -/
theorem right_weight_block (c : Dev nD) (t : Fin cfg2.N) : iblk2 V c 4 t = V c main_arg11 := by
  funext y
  show V c main_arg11 (((cfg2.win 4).blk t).view.emb y) = V c main_arg11 y
  obtain ⟨-, -, -, -, -, -, -, -, e0, e1, -⟩ := block_indices t
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Row `p` of block `t` of the aggregated-neighbourhood array is row `p` of the result's block `t` in the whole array. -/
theorem mean_block_row (c : Dev nD) (t : Fin cfg2.N) (j : S5000x128.Idx) (k : Fin 128) :
    iblk2 V c 0 t (ix2 (j 0) k) = V c main_v52 (ix2 ((((cfg2.win 5).blk t).view.emb j) 0) k) := by
  show V c main_v52 (((cfg2.win 0).blk t).view.emb (ix2 (j 0) k)) = _
  obtain ⟨e0, e1, -, -, -, -, -, -, -, -, e10, e11⟩ := block_indices t
  refine congrArg _ (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 128 + 1 * k.val = k.val; omega

/-- Row `p` of block `t` of the node array is row `p` of the result's block `t` in the whole array. -/
theorem node_block_row (c : Dev nD) (t : Fin cfg2.N) (j : S5000x128.Idx) (k : Fin 128) :
    iblk2 V c 1 t (ix2 (j 0) k) = V c main_v40 (ix2 ((((cfg2.win 5).blk t).view.emb j) 0) k) := by
  show V c main_v40 (((cfg2.win 1).blk t).view.emb (ix2 (j 0) k)) = _
  obtain ⟨-, -, e0, e1, -, -, -, -, -, -, e10, e11⟩ := block_indices t
  refine congrArg _ (funext fun a => Fin.ext ?_)
  match a with
  | ⟨0, _⟩ => show win2_1.index t (0 : Fin 2) * 5000 + 1 * (j 0).val = win2_5.index t (0 : Fin 2) * 5000 + 1 * (j 0).val; omega
  | ⟨1, _⟩ => show win2_1.index t (1 : Fin 2) * 128 + 1 * k.val = k.val; omega

/-- What point `t` writes back is block `t` of the combination of the whole arrays as the region finds them. -/
theorem flushed_eq (c : Dev nD) (t : Fin cfg2.N) :
    (dat2 (F := Ideal) V c).flushed 5 t
      = ((cfg2.win 5).blk t).view.read (Elt Ideal) (Cert.LinkSage.combine (M := 50000) (V c main_v52) (V c main_v40) (V c main_arg9) (V c main_v53) (V c main_arg11)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S1x128) origin]
  rw [SageTile.pay2, left_weight_block, bias_block, right_weight_block]
  funext j
  show Cert.LinkSage.combine (M := 5000) (iblk2 V c 0 t) (iblk2 V c 1 t) (V c main_arg9) (V c main_v53) (V c main_arg11) j
    = Cert.LinkSage.combine (M := 50000) (V c main_v52) (V c main_v40) (V c main_arg9) (V c main_v53) (V c main_arg11) (((cfg2.win 5).blk t).view.emb j)
  refine SageTile.combine_row _ _ _ _ _ _ _ j _ ?_ (mean_block_row V c t j) (node_block_row V c t j)
  obtain ⟨-, -, -, -, -, -, -, -, -, -, -, e11⟩ := block_indices t
  show (j 1).val = win2_5.index t (1 : Fin 2) * 128 + 1 * (j 1).val
  omega

/-- An index of the result is in point `t`'s block iff each coordinate is in the block's range on its axis. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- The ten blocks tile the result: row `r` is in the block of point `r / 5000`. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < grid2.N := by rw [N_2]; omega
  refine ⟨⟨(i 0).val / 5000, hN⟩, flush2_5 _, ?_⟩
  obtain ⟨-, -, -, -, -, -, -, -, -, -, e10, e11⟩ := block_indices ⟨(i 0).val / 5000, hN⟩
  have e10' : win2_5.index ⟨(i 0).val / 5000, hN⟩ (0 : Fin 2) = (i 0).val / 5000 := e10
  rw [mem_block]
  intro a
  match a with
  | ⟨0, _⟩ => show win2_5.index ⟨(i 0).val / 5000, hN⟩ (0 : Fin 2) * 5000 ≤ (i 0).val ∧ (i 0).val < win2_5.index ⟨(i 0).val / 5000, hN⟩ (0 : Fin 2) * 5000 + 5000; omega
  | ⟨1, _⟩ => show win2_5.index ⟨(i 0).val / 5000, hN⟩ (1 : Fin 2) * 128 ≤ (i 1).val ∧ (i 1).val < win2_5.index ⟨(i 0).val / 5000, hN⟩ (1 : Fin 2) * 128 + 128; omega

/-- The result array after the region: the combination of the whole arrays as the region finds them. -/
theorem final (c : Dev nD) :
    (dat2 (F := Ideal) V c).arrAt 5 cfg2.N = Cert.LinkSage.combine (M := 50000) (V c main_v52) (V c main_v40) (V c main_arg9) (V c main_v53) (V c main_arg11) :=
  (dat2 (F := Ideal) V c).arrAt_eq_of_cover 5 (Cert.LinkSage.combine (M := 50000) (V c main_v52) (V c main_v40) (V c main_arg9) (V c main_v53) (V c main_arg11)) (fun t _ => flushed_eq V c t) covered

end Cert.KernelIdeal.Region2

end
-- ==== Proof.DecoderTile.lean ====
/-
  The decoder's tile body is the link decoder at tile height 5000.

  On a tile of 5000 pair rows the body forms `max (pair · w1 + r1) 0`, multiplies it by the second weight and adds the
  second bias row.  Over the extended reals the narrowing of an operand is the identity, a product into the zero
  accumulator is the plain sum `∑ k, lhs (p, k) * rhs (k, q)`, and a bias row broadcast over the rows is read at the
  entry's column; so entry `(p, q)` of the body is exactly entry `(p, q)` of `decode` of the same five arrays.
-/
import proofs.«164234_j4964982194352_1_alg».proof.Proof.Gen.KernelIdeal.Skeleton
import proofs.«164234_j4964982194352_1_alg».proof.Proof.LinkSage
import proofs.«164234_j4964982194352_1_alg».proof.Proof.LibPlainDot
import Idealize.ShloMosaic.Lib.ValueLayout
import Idealize.ShloMosaic.Lib.Pipeline.Value

noncomputable section

namespace Cert.KernelIdeal.DecoderTile

open Idealize.ShloMosaic Idealize.ShloMosaic.ValueIdx

/-- The dimension numbers of the first product are those of a plain `5000×256` by `256×128` product. -/
theorem dims_first : dot_S5000x256_S256x128_S5000x128_1_0_0_1_n_n = DotDims.plain 5000 256 128 := rfl

/-- The dimension numbers of the second product are those of a plain `5000×128` by `128×128` product. -/
theorem dims_second : dot_S5000x128_S128x128_S5000x128_1_0_0_1_n_n = DotDims.plain 5000 128 128 := rfl

/-- The tile body at entry `(p, q)`. -/
theorem pay3_apply (pair : Vec Ideal S5000x256 .f32) (w1 : Vec Ideal S256x128 .f32) (r1 : Vec Ideal S1x128 .f32)
    (w2 : Vec Ideal S128x128 .f32) (r2 : Vec Ideal S1x128 .f32) (p : Fin 5000) (q : Fin 128) :
    Gen.k3_pay1 (F := Ideal) pair w1 r1 w2 r2 (ix2 p q)
      = ∑ j : Fin 128, max (∑ k : Fin 256, pair (ix2 p k) * w1 (ix2 k j) + r1 (ix2 (0 : Fin 1) j)) LinkSage.zeroWord
            * w2 (ix2 j q) + r2 (ix2 (0 : Fin 1) q) := by
  unfold Gen.k3_pay1
  rw [addf_apply]
  refine congrArg₂ (· + ·) ?_ ?_
  · refine (PlainDot.matmul_zero_apply _ dims_second none _ _ p q).trans ?_
    refine Finset.sum_congr rfl fun j _ => ?_
    rw [truncf_apply, truncf_apply, maximumf_apply, addf_apply]
    simp only [shapeCast_self]
    refine congrArg₂ (· * ·) (congrArg₂ max (congrArg₂ (· + ·) ?_ ?_) rfl) rfl
    · refine (PlainDot.matmul_zero_apply _ dims_first none _ _ p j).trans ?_
      refine Finset.sum_congr rfl fun k _ => ?_
      rw [truncf_apply, truncf_apply]
    · exact broadcastTo_1b_ab_apply r1 _ p j
  · simp only [shapeCast_self]
    exact broadcastTo_1b_ab_apply r2 _ p q

/-- The tile body is `decode` of the tile and the two weight and bias arrays. -/
theorem pay3 (pair : Vec Ideal S5000x256 .f32) (w1 : Vec Ideal S256x128 .f32) (r1 : Vec Ideal S1x128 .f32)
    (w2 : Vec Ideal S128x128 .f32) (r2 : Vec Ideal S1x128 .f32) :
    Gen.k3_pay1 (F := Ideal) pair w1 r1 w2 r2 = LinkSage.decode pair w1 r1 w2 r2 := by
  funext i
  obtain ⟨p, q, rfl⟩ : ∃ (p : Fin 5000) (q : Fin 128), i = ix2 p q := ⟨i 0, i 1, eq_ix2 i⟩
  rw [pay3_apply]
  rfl

end Cert.KernelIdeal.DecoderTile

end
-- ==== Proof.Region3.lean ====
/-
  Region 3, from blocks to the whole array: the decoder region leaves `decode` of its five input arrays.

  The grid has 40 points.  Point `t` reads rows `5000·t … 5000·t + 4999` of the pair array and the whole of the two
  weight arrays and the two bias rows (their block index is constantly 0), applies the tile body, and writes the result to
  rows `5000·t … 5000·t + 4999` of the output.  Row `5000·t + p` of `decode` of the whole arrays depends on the pair array
  only through its row `5000·t + p`, so the tile body's block is the block of `decode` of the whole arrays; the 40 blocks of
  5000 rows tile the 200000 rows exactly, so the output array ends as `decode` of the whole arrays, with no remainder.
-/
import proofs.«164234_j4964982194352_1_alg».proof.Proof.Gen.KernelIdeal.Frame
import proofs.«164234_j4964982194352_1_alg».proof.Proof.DecoderTile

set_option maxRecDepth 16384

noncomputable section

namespace Cert.KernelIdeal.Region3

open Idealize.ShloMosaic Idealize.ShloMosaic.TcCoe Idealize.ShloMosaic.ValueIdx
open Idealize.SL Idealize.SL.Sem
open Idealize.ShloMosaic.Pipeline (Dat Cfg Window)

theorem zero_offset : (![0, 0] : Fin 2 → Nat) = fun _ => 0 := funext fun a => by fin_cases a <;> rfl

/-- The printed index maps over the 40 grid points: the pair window and the output window sit at block row `t`, block
    column 0; the weight and bias windows sit at block `(0, 0)` at every point. -/
theorem index_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of `decode`: when the tile's rows are rows `5000·t + p` of the pair array and the other four operands
    are the whole weight and bias arrays, the decoder at tile height 5000 read at `(p, q)` is the decoder of the whole
    arrays read at `(5000·t + p, q)`. -/
theorem decode_block (pair : S200000x256.Idx → EReal) (w1 : S256x128.Idx → EReal) (r1 : S1x128.Idx → EReal)
    (w2 : S128x128.Idx → EReal) (r2 : S1x128.Idx → EReal)
    (tile : S5000x256.Idx → EReal) (w1' : S256x128.Idx → EReal) (r1' : S1x128.Idx → EReal)
    (w2' : S128x128.Idx → EReal) (r2' : S1x128.Idx → EReal) (t : ℕ)
    (htile : ∀ (y : S5000x256.Idx) (x : S200000x256.Idx), (x 0).val = t * 5000 + (y 0).val → (x 1).val = (y 1).val →
      tile y = pair x)
    (hw1 : ∀ y, w1' y = w1 y) (hr1 : ∀ y, r1' y = r1 y) (hw2 : ∀ y, w2' y = w2 y) (hr2 : ∀ y, r2' y = r2 y)
    (j : S5000x128.Idx) (i : S200000x128.Idx) (h0 : (i 0).val = t * 5000 + (j 0).val) (h1 : (i 1).val = (j 1).val) :
    LinkSage.decode (M := 5000) tile w1' r1' w2' r2' j = LinkSage.decode (M := 200000) pair w1 r1 w2 r2 i := by
  obtain rfl : w1' = w1 := funext hw1
  obtain rfl : r1' = r1 := funext hr1
  obtain rfl : w2' = w2 := funext hw2
  obtain rfl : r2' = r2 := funext hr2
  obtain ⟨p, q, rfl⟩ : ∃ (p : Fin 5000) (q : Fin 128), j = ix2 p q := ⟨j 0, j 1, eq_ix2 j⟩
  obtain ⟨P, Q, rfl⟩ : ∃ (P : Fin 200000) (Q : Fin 128), i = ix2 P Q := ⟨i 0, i 1, eq_ix2 i⟩
  have hP : P.val = t * 5000 + p.val := h0
  obtain rfl : Q = q := Fin.ext h1
  rw [LinkSage.decode_apply, LinkSage.decode_apply]
  refine congrArg₂ (· + ·) (Finset.sum_congr rfl fun u _ => ?_) rfl
  rw [LinkSage.hidden_apply, LinkSage.hidden_apply]
  refine congrArg₂ (· * ·) (congrArg₂ max (congrArg₂ (· + ·) (Finset.sum_congr rfl fun k _ => ?_) rfl) rfl) rfl
  exact congrArg₂ (· * ·) (htile (ix2 p k) (ix2 P k) hP rfl) rfl

variable (V : (c : Dev nD) → (b : Ref sig .tc) → Buf (Elt Ideal) ((c : Thread nD τ).loc b))

/-- The link decoder of the five arrays the region finds in its input windows. -/
abbrev G (c : Dev nD) : S200000x128.Idx → EReal :=
  LinkSage.decode (M := 200000) (V c main_v73) (V c main_arg12) (V c main_v84) (V c main_v77) (V c main_v83)

/-- What point `t` writes back is block `t` of `decode` of the whole arrays. -/
theorem flushed_eq (c : Dev nD) (t : Fin cfg3.N) :
    (Gen.dat3 (F := Ideal) V c).flushed 5 t = ((cfg3.win 5).blk t).view.read (Elt Ideal) (G V c) := by
  show (cfg3.win 5).cut (grid3.coords t) ((Gen.dat3 (F := Ideal) V c).after 5 t) = _
  rw [Gen.after3_5]
  unfold Gen.out3_5
  rw [View.canon_unit_zero zero_offset]
  simp only [View.ld_unit_zero (S := S5000x256) zero_offset, View.ld_unit_zero (S := S256x128) zero_offset,
    View.ld_unit_zero (S := S1x128) zero_offset, View.ld_unit_zero (S := S128x128) zero_offset]
  rw [DecoderTile.pay3]
  obtain ⟨e00, e01, e10, e11, e20, e21, e30, e31, e40, e41, e50, e51⟩ := index_facts t
  funext j
  show LinkSage.decode (M := 5000) (Gen.iblk3 V c 0 t) (Gen.iblk3 V c 1 t) (Gen.iblk3 V c 2 t) (Gen.iblk3 V c 3 t)
      (Gen.iblk3 V c 4 t) j = G V c (((cfg3.win 5).blk t).view.emb j)
  refine decode_block (V c main_v73) (V c main_arg12) (V c main_v84) (V c main_v77) (V c main_v83)
    (Gen.iblk3 V c 0 t) (Gen.iblk3 V c 1 t) (Gen.iblk3 V c 2 t) (Gen.iblk3 V c 3 t) (Gen.iblk3 V c 4 t) t.val
    ?_ ?_ ?_ ?_ ?_ j (((cfg3.win 5).blk t).view.emb j) ?_ ?_
  · intro y x hx0 hx1
    show V c main_v73 (((cfg3.win 0).blk t).view.emb y) = V c main_v73 x
    refine congrArg _ (funext fun a => Fin.ext ?_)
    match a with
    | ⟨0, _⟩ => show win3_0.index t (0 : Fin 2) * 5000 + 1 * (y 0).val = (x 0).val; omega
    | ⟨1, _⟩ => show win3_0.index t (1 : Fin 2) * 256 + 1 * (y 1).val = (x 1).val; omega
  · intro y
    show V c main_arg12 (((cfg3.win 1).blk t).view.emb y) = V c main_arg12 y
    refine congrArg _ (funext fun a => Fin.ext ?_)
    match a with
    | ⟨0, _⟩ => show win3_1.index t (0 : Fin 2) * 256 + 1 * (y 0).val = (y 0).val; omega
    | ⟨1, _⟩ => show win3_1.index t (1 : Fin 2) * 128 + 1 * (y 1).val = (y 1).val; omega
  · intro y
    show V c main_v84 (((cfg3.win 2).blk t).view.emb y) = V c main_v84 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · intro y
    show V c main_v77 (((cfg3.win 3).blk t).view.emb y) = V c main_v77 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  · intro y
    show V c main_v83 (((cfg3.win 4).blk t).view.emb y) = V c main_v83 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · show win3_5.index t (0 : Fin 2) * 5000 + 1 * (j 0).val = t.val * 5000 + (j 0).val; omega
  · show win3_5.index t (1 : Fin 2) * 128 + 1 * (j 1).val = (j 1).val; omega

/-- An index of the output array is in point `t`'s block iff each coordinate is in the block's range on its axis. -/
theorem mem_blk (t : Fin cfg3.N) (i : S200000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v85).slice (win3_5.rect t)).set ↔ _
  rw [View.set_slice_whole, Rect.mem_set_unit]
  exact Iff.rfl

/-- The 40 blocks of 5000 rows tile the 200000 rows: row `r` is in the block of point `r / 5000`. -/
theorem cover (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  have hlt : (i 0).val / 5000 < cfg3.N := by
    have hN : grid3.N = 40 := Gen.N_3
    show (i 0).val / 5000 < grid3.N
    omega
  obtain ⟨t, ht⟩ : ∃ t : Fin cfg3.N, t.val = (i 0).val / 5000 := ⟨⟨_, hlt⟩, rfl⟩
  obtain ⟨e00, e01, e10, e11, e20, e21, e30, e31, e40, e41, e50, e51⟩ := index_facts t
  refine ⟨t, Gen.flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- The output array after the region: `decode` of the five arrays the region found in its input windows. -/
theorem final (c : Dev nD) :
    (Gen.dat3 (F := Ideal) V c).arrAt 5 cfg3.N
      = LinkSage.decode (M := 200000) (V c main_v73) (V c main_arg12) (V c main_v84) (V c main_v77) (V c main_v83) :=
  (Gen.dat3 (F := Ideal) V c).arrAt_eq_of_cover 5 (G V c) (fun t _ => flushed_eq V c t) cover

end Cert.KernelIdeal.Region3

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.RefSide.lean ====
/-
  The reference program's result as the three-layer network of `LinkSage`.

  Every layer gathers the rows of its input at the edge sources, sums them at the edge targets, divides row `p` by
  `max (count p, 1)` and combines the mean with the input through two weight matrices and a bias row; the decoder
  gathers the rows of the last layer's output at the two ends of each labelled pair, joins them side by side and
  scores the pair.  The gathers, the scatter-additions and the join are kept as the host's own operations (functions
  of whole arrays); only the dense arithmetic is read index by index.

  `meanMul` is the same mean written as a product with the column of quotients `1 / max (count p, 1)`; it equals
  `meanDiv` on all extended reals because `max (count p, 1)` is at least one, hence not zero.
-/
import proofs.«164234_j4964982194352_1_alg».proof.Proof.Gen.ReferenceIdeal.Read
import proofs.«164234_j4964982194352_1_alg».proof.Proof.LinkSage
import proofs.«164234_j4964982194352_1_alg».proof.Proof.LibPlainDot
import proofs.«164234_j4964982194352_1_alg».proof.Proof.LibRegionBlockSpread
import Idealize.ShloMosaic.Lib.IdealHost
import Idealize.ShloMosaic.Lib.ValueLayout

noncomputable section

namespace Cert.ReferenceIdeal.Tower

open Cert.ReferenceIdeal Cert.ReferenceIdeal.Gen Cert.ReferenceIdeal.Read Cert.LinkSage
open Idealize.ShloMosaic Idealize.ShloMosaic.TcCoe Idealize.ShloMosaic.ValueIdx

abbrev Nodes := FVec Ideal S50000x128 .f32
abbrev Edges := (⟨S2x800000, .i32⟩ : BufTy).Contents (Elt Ideal)
abbrev Pairs := (⟨S2x200000, .i32⟩ : BufTy).Contents (Elt Ideal)

/-- The neighbourhood sums of `h`: the rows of `h` at the edge sources, added up at the edge targets. -/
def agg (x1 : Edges) (h : Nodes) : Nodes :=
  Host.scatterAdd scatter_S50000x128_S800000x1_S800000x128_1_0_0_1 (val_main_v11 (F := Ideal)) (val_main_v12 (F := Ideal) x1)
    (Host.gather gather_S50000x128_S800000x1_S800000x128_1_0_n_n_0_1_1128 h (val_main_v9 (F := Ideal) x1))

/-- The neighbourhood means, by division: row `p` of the sums divided by `max (count p, 1)`. -/
def meanDiv (x1 : Edges) (h : Nodes) : Nodes := Host.divf (agg x1 h) (val_main_v21 (F := Ideal) x1)

/-- The column of quotients `1 / max (count p, 1)`. -/
def invCol (x1 : Edges) : FVec Ideal S50000x1 .f32 :=
  broadcastInDim S50000x1 ![0] bcast_S50000_S50000x1_0 (Host.divf (val_main_v18 (F := Ideal)) (val_main_v19 (F := Ideal) x1))

/-- The neighbourhood means, by multiplication with the column of quotients. -/
def meanMul (x1 : Edges) (h : Nodes) : Nodes :=
  mulf (agg x1 h) (broadcastInDim S50000x128 ![0, 1] bcast_S50000x1_S50000x128_0_1 (invCol x1))

/-- A bias vector as a row. -/
def rowOf (b : FVec Ideal S128 .f32) : FVec Ideal S1x128 .f32 := broadcastInDim S1x128 ![1] bcast_S128_S1x128_1 b

/-- The rows of `z` at the two ends of every labelled pair, side by side. -/
def pairOf (x2 : Pairs) (z : Nodes) : FVec Ideal S200000x256 .f32 :=
  concatenate S200000x256 1
    [⟨S200000x128, Host.gather gather_S50000x128_S200000x1_S200000x128_1_0_n_n_0_1_1128 z (val_main_v90 (F := Ideal) x2)⟩,
     ⟨S200000x128, Host.gather gather_S50000x128_S200000x1_S200000x128_1_0_n_n_0_1_1128 z (val_main_v97 (F := Ideal) x2)⟩]
    concatenates_S200000x128_S200000x128_S200000x256_d1

/-- The whole network over a choice `mean` of the neighbourhood-mean map. -/
def tower (mean : Nodes → Nodes) (x0 : Nodes) (x2 : Pairs) (x3 : FVec Ideal S128x128 .f32) (x4 : FVec Ideal S128 .f32)
    (x5 x6 : FVec Ideal S128x128 .f32) (x7 : FVec Ideal S128 .f32) (x8 x9 : FVec Ideal S128x128 .f32)
    (x10 : FVec Ideal S128 .f32) (x11 : FVec Ideal S128x128 .f32) (x12 : FVec Ideal S256x128 .f32)
    (x13 : FVec Ideal S128 .f32) (x14 : FVec Ideal S128x1 .f32) (x15 : FVec Ideal S1 .f32) : FVec Ideal S200000 .f32 :=
  let h1 : Nodes := combineRelu (mean x0) x0 x3 (rowOf x4) x5
  let h2 : Nodes := combineRelu (mean h1) h1 x6 (rowOf x7) x8
  let z : Nodes := combine (mean h2) h2 x9 (rowOf x10) x11
  score (pairOf x2 z) x12 (rowOf x13) (fun j => x14 (ix2 j (0 : Fin 1))) (x15 (ix1 (0 : Fin 1)))

/-! ## Dividing by `max (count, 1)` is multiplying by its quotient -/

/-- The host's quotient at an index. -/
theorem hostDivf_apply {s : Shape} {φ : FTy} (a b : FVec Ideal s φ) (i : s.Idx) : Host.divf a b i = Ideal.div (a i) (b i) := rfl

theorem mean_eq (x1 : Edges) (h : Nodes) : meanMul x1 h = meanDiv x1 h := by
  funext i
  obtain ⟨p, q, rfl⟩ : ∃ (p : Fin 50000) (q : Fin 128), i = ix2 p q := ⟨i 0, i 1, eq_ix2 i⟩
  unfold meanMul meanDiv
  rw [mulf_apply, hostDivf_apply]
  unfold val_main_v21 val_main_v20 invCol
  rw [KeepDims.broadcastInDim_a1_ab_apply, KeepDims.broadcastInDim_a_a1_apply, KeepDims.broadcastInDim_a1_ab_apply,
    KeepDims.broadcastInDim_a_a1_apply, hostDivf_apply]
  have h1 : val_main_v18 (F := Ideal) (ix1 p) = 1 := by
    rw [val_main_v18_apply, val_main_cst_3_apply]
    exact Ideal.ofBits_one_f32
  have hc : val_main_v19 (F := Ideal) x1 (ix1 p) ≠ 0 := by
    have hle : (1 : EReal) ≤ val_main_v19 (F := Ideal) x1 (ix1 p) := by
      unfold val_main_v19
      rw [maximumf_apply, h1]
      exact le_max_right _ _
    exact ne_of_gt (lt_of_lt_of_le zero_lt_one hle)
  rw [h1]
  exact mul_one_div _ _ hc

/-! ## The host's spelling of one layer -/

theorem dot_nodes : dot_S50000x128_S128x128_S50000x128_1_0_0_1_n_n = DotDims.plain 50000 128 128 := rfl

/-- `(mean · wl + r) + h · wr` as the host writes it. -/
theorem host_combine (mean h : Nodes) (wl : FVec Ideal S128x128 .f32) (r : FVec Ideal S1x128 .f32) (wr : FVec Ideal S128x128 .f32) :
    addf (addf (Host.dotGeneral dot_S50000x128_S128x128_S50000x128_1_0_0_1_n_n none mean wl)
        (broadcastInDim S50000x128 ![0, 1] bcast_S1x128_S50000x128_0_1 r))
      (Host.dotGeneral dot_S50000x128_S128x128_S50000x128_1_0_0_1_n_n none h wr)
      = combine mean h wl r wr := by
  funext i
  obtain ⟨p, q, rfl⟩ : ∃ (p : Fin 50000) (q : Fin 128), i = ix2 p q := ⟨i 0, i 1, eq_ix2 i⟩
  show (Host.dotGeneral dot_S50000x128_S128x128_S50000x128_1_0_0_1_n_n none mean wl (ix2 p q)
        + broadcastInDim S50000x128 ![0, 1] bcast_S1x128_S50000x128_0_1 r (ix2 p q))
      + Host.dotGeneral dot_S50000x128_S128x128_S50000x128_1_0_0_1_n_n none h wr (ix2 p q) = _
  simp only [Host.dotGeneral]
  rw [PlainDot.dotGeneral_apply _ dot_nodes, PlainDot.dotGeneral_apply _ dot_nodes, KeepDims.broadcastInDim_1b_ab_apply]
  rfl

/-- The same followed by the host's rectifier. -/
theorem host_combineRelu (mean h : Nodes) (wl : FVec Ideal S128x128 .f32) (r : FVec Ideal S1x128 .f32) (wr : FVec Ideal S128x128 .f32) :
    maximumf (addf (addf (Host.dotGeneral dot_S50000x128_S128x128_S50000x128_1_0_0_1_n_n none mean wl)
        (broadcastInDim S50000x128 ![0, 1] bcast_S1x128_S50000x128_0_1 r))
      (Host.dotGeneral dot_S50000x128_S128x128_S50000x128_1_0_0_1_n_n none h wr))
      (broadcastInDim S50000x128 ![] bcast_S_S50000x128 (constant (F := Ideal) S_ .f32 0x00000000#32))
      = combineRelu mean h wl r wr := by
  rw [host_combine]
  funext i
  show max (combine mean h wl r wr i) (broadcastInDim S50000x128 ![] bcast_S_S50000x128 (constant (F := Ideal) S_ .f32 0x00000000#32) i)
    = max (combine mean h wl r wr i) zeroWord
  rw [broadcastInDim_apply ![] bcast_S_S50000x128 _ i ix0 (fun a => a.elim0)]
  rfl

/-! ## The reference's stages -/

theorem layer1 (x0 : Nodes) (x1 : Edges) (x3 : FVec Ideal S128x128 .f32) (x4 : FVec Ideal S128 .f32) (x5 : FVec Ideal S128x128 .f32) :
    val_main_v29 (F := Ideal) x0 x1 x3 x4 x5 = combineRelu (meanDiv x1 x0) x0 x3 (rowOf x4) x5 :=
  host_combineRelu (meanDiv x1 x0) x0 x3 (rowOf x4) x5

theorem layer2 (x0 : Nodes) (x1 : Edges) (x3 : FVec Ideal S128x128 .f32) (x4 : FVec Ideal S128 .f32) (x5 x6 : FVec Ideal S128x128 .f32)
    (x7 : FVec Ideal S128 .f32) (x8 : FVec Ideal S128x128 .f32) :
    val_main_v55 (F := Ideal) x0 x1 x3 x4 x5 x6 x7 x8
      = combineRelu (meanDiv x1 (val_main_v29 (F := Ideal) x0 x1 x3 x4 x5)) (val_main_v29 (F := Ideal) x0 x1 x3 x4 x5) x6 (rowOf x7) x8 :=
  host_combineRelu (meanDiv x1 (val_main_v29 (F := Ideal) x0 x1 x3 x4 x5)) (val_main_v29 (F := Ideal) x0 x1 x3 x4 x5) x6 (rowOf x7) x8

theorem layer3 (x0 : Nodes) (x1 : Edges) (x3 : FVec Ideal S128x128 .f32) (x4 : FVec Ideal S128 .f32) (x5 x6 : FVec Ideal S128x128 .f32)
    (x7 : FVec Ideal S128 .f32) (x8 x9 : FVec Ideal S128x128 .f32) (x10 : FVec Ideal S128 .f32) (x11 : FVec Ideal S128x128 .f32) :
    val_main_v80 (F := Ideal) x0 x1 x3 x4 x5 x6 x7 x8 x9 x10 x11
      = combine (meanDiv x1 (val_main_v55 (F := Ideal) x0 x1 x3 x4 x5 x6 x7 x8)) (val_main_v55 (F := Ideal) x0 x1 x3 x4 x5 x6 x7 x8) x9 (rowOf x10) x11 :=
  host_combine (meanDiv x1 (val_main_v55 (F := Ideal) x0 x1 x3 x4 x5 x6 x7 x8)) (val_main_v55 (F := Ideal) x0 x1 x3 x4 x5 x6 x7 x8) x9 (rowOf x10) x11

/-! ## The reference's decoder -/

theorem dot_pairs : dot_S200000x256_S256x128_S200000x128_1_0_0_1_n_n = DotDims.plain 200000 256 128 := rfl
theorem dot_scores : dot_S200000x128_S128x1_S200000x1_1_0_0_1_n_n = DotDims.plain 200000 128 1 := rfl

/-- An `[a, 1]` column read as a vector: the entry at `p` is the column's entry at `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector as a row reads, at `(u, j)`, the vector at `j`. -/
theorem broadcastInDim_n_1n_apply {α : Type} {n : ℕ} (b : (⟨1, ![n]⟩ : Shape).Idx → α)
    (h : (⟨1, ![n]⟩ : Shape).BroadcastsInDim ⟨2, ![1, n]⟩ (![1] : Fin 1 → Fin 2)) (u : Fin 1) (j : Fin n) :
    broadcastInDim ⟨2, ![1, n]⟩ (![1] : Fin 1 → Fin 2) h b (ix2 u j) = b (ix1 j) :=
  broadcastInDim_apply _ h b (ix2 u j) (ix1 j) (fun a => by
    match a with
    | ⟨0, _⟩ =>
      show j.val = if n = 1 then 0 else j.val
      split
      · have := j.isLt; omega
      · rfl)

/-- The decoder as the host writes it is `score` with the one weight column and the one bias. -/
theorem host_score (pair : FVec Ideal S200000x256 .f32) (w1 : FVec Ideal S256x128 .f32) (r1 : FVec Ideal S1x128 .f32)
    (w2 : FVec Ideal S128x1 .f32) (b2 : FVec Ideal S1 .f32) :
    shapeCast S200000
        (addf (Host.dotGeneral dot_S200000x128_S128x1_S200000x1_1_0_0_1_n_n none
            (maximumf (addf (Host.dotGeneral dot_S200000x256_S256x128_S200000x128_1_0_0_1_n_n none pair w1)
                (broadcastInDim S200000x128 ![0, 1] bcast_S1x128_S200000x128_0_1 r1))
              (broadcastInDim S200000x128 ![] bcast_S_S200000x128 (constant (F := Ideal) S_ .f32 0x00000000#32))) w2)
          (broadcastInDim S200000x1 ![0, 1] bcast_S1x1_S200000x1_0_1 (broadcastInDim S1x1 ![1] bcast_S1_S1x1_1 b2)))
        shapeCasts_S200000x1_S200000
      = score pair w1 r1 (fun j => w2 (ix2 j (0 : Fin 1))) (b2 (ix1 (0 : Fin 1))) := by
  funext i
  obtain ⟨p, rfl⟩ : ∃ p : Fin 200000, i = ix1 p := ⟨i 0, eq_ix1 i⟩
  rw [shapeCast_a1_a_apply, addf_apply]
  simp only [Host.dotGeneral]
  rw [PlainDot.dotGeneral_apply _ dot_scores, KeepDims.broadcastInDim_1b_ab_apply, broadcastInDim_n_1n_apply]
  show _ = ∑ j : Fin 128, hidden pair w1 r1 (ix2 p j) * w2 (ix2 j (0 : Fin 1)) + b2 (ix1 (0 : Fin 1))
  refine congrArg (· + b2 (ix1 (0 : Fin 1))) (Finset.sum_congr rfl fun j _ => ?_)
  refine congrArg (· * w2 (ix2 j (0 : Fin 1))) ?_
  rw [maximumf_apply, addf_apply, PlainDot.dotGeneral_apply _ dot_pairs, KeepDims.broadcastInDim_1b_ab_apply,
    broadcastInDim_apply ![] bcast_S_S200000x128 _ (ix2 p j) ix0 (fun a => a.elim0)]
  rfl

/-- The reference's result is the network with the mean by division. -/
theorem ref_value (x0 : Nodes) (x1 : Edges) (x2 : Pairs) (x3 : FVec Ideal S128x128 .f32) (x4 : FVec Ideal S128 .f32)
    (x5 x6 : FVec Ideal S128x128 .f32) (x7 : FVec Ideal S128 .f32) (x8 x9 : FVec Ideal S128x128 .f32)
    (x10 : FVec Ideal S128 .f32) (x11 : FVec Ideal S128x128 .f32) (x12 : FVec Ideal S256x128 .f32)
    (x13 : FVec Ideal S128 .f32) (x14 : FVec Ideal S128x1 .f32) (x15 : FVec Ideal S1 .f32) :
    val_main_v109 (F := Ideal) x0 x1 x2 x3 x4 x5 x6 x7 x8 x9 x10 x11 x12 x13 x14 x15
      = tower (meanDiv x1) x0 x2 x3 x4 x5 x6 x7 x8 x9 x10 x11 x12 x13 x14 x15 := by
  refine (host_score (pairOf x2 (val_main_v80 (F := Ideal) x0 x1 x3 x4 x5 x6 x7 x8 x9 x10 x11)) x12 (rowOf x13) x14 x15).trans ?_
  rw [layer3, layer2, layer1]
  rfl

end Cert.ReferenceIdeal.Tower

end
-- ==== Proof.LibRowOfVector.lean ====
/-
  A vector laid out as one row, two ways.

  An array of shape `[n]` becomes an array of shape `[1, n]` either by a reshape or by a broadcast that sends its one axis
  to the second axis of the result. Both read, at `(u, j)`, the vector at `j` (the unit coordinate `u` is `0`), so they
  are the same array.
-/
import Idealize.ShloMosaic.Lib.Pipeline.Value
import Idealize.ShloMosaic.Lib.ValueIdx
import Idealize.ShloMosaic.Lib.ValueLayout

noncomputable section

namespace Idealize.ShloMosaic.RowOfVector

open Idealize.ShloMosaic Idealize.ShloMosaic.ValueIdx

/-- An `[n]` array reshaped to `[1, n]` is the same array broadcast along the second axis. -/
theorem shapeCast_eq_broadcastInDim {α : Type} (n : ℕ) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) h2 x := by
  funext i
  obtain ⟨u, j, rfl⟩ : ∃ (u : Fin 1) (j : Fin n), i = ix2 u j := ⟨i 0, i 1, eq_ix2 i⟩
  rw [shapeCast_a_1a_apply]
  refine (broadcastInDim_apply _ h2 x (ix2 u j) (ix1 j) (fun a => ?_)).symm
  match a with
  | ⟨0, _⟩ =>
    show j.val = if n = 1 then 0 else j.val
    split
    · have := j.isLt; omega
    · rfl

end Idealize.ShloMosaic.RowOfVector

end
-- ==== Proof.LibScatterRead.lean ====
/-
  A `stablehlo.scatter` read at one index of its result.

  `Host.scatter d f x idx upd` starts from the operand `x` and walks the update positions in row-major order; a
  position whose landing index `d.resultIdx? j idx` is `some i` replaces the element at `i` by the body `f` of that
  element and the update's element, and a position that lands outside the operand changes nothing. Seen from one
  result index `i` the walk is a fold of steps of which only those landing on `i` do anything there:
    * if no position lands on `i`, the result at `i` is the operand's element (`Host.scatter_apply_of_miss`);
    * if exactly one position `j` lands on `i`, the result at `i` is `f (x i) (upd j)` (`Host.scatter_apply_of_hit`)
      — for a body that returns the update (`x.at[…].set(v)`) this is `upd j`.
  Both come from two facts about a left fold of functions `κ → α` read at one point `k` (`foldl_apply_of_miss`,
  `foldl_apply_of_hit`), stated for an arbitrary step so that they do not depend on how the step is spelt.
-/
import Idealize.ShloMosaic.PureOps.ShapeOps
import Idealize.ShloMosaic.Lib.ValueIdx

namespace Idealize.ShloMosaic

section Fold
variable {ι κ α : Type}

/-- A left fold of functions read at a point `k` that no step of the list changes: the initial function at `k`. -/
theorem foldl_apply_of_miss (step : (κ → α) → ι → (κ → α)) (k : κ) :
    ∀ (L : List ι), (∀ n ∈ L, ∀ r, step r n k = r k) → ∀ r, L.foldl step r k = r k
  | [], _, _ => rfl
  | a :: L, h, r => by
    rw [List.foldl_cons, foldl_apply_of_miss step k L (fun n hn => h n (List.mem_cons_of_mem _ hn)),
      h a List.mem_cons_self]

/-- A left fold of functions read at a point `k` that exactly one entry `n` of a duplicate-free list changes, to
    `val` of the value found there: `val` of the initial function's value at `k`. -/
theorem foldl_apply_of_hit (step : (κ → α) → ι → (κ → α)) (k : κ) (n : ι) (val : α → α)
    (hhit : ∀ r, step r n k = val (r k)) :
    ∀ (L : List ι), L.Nodup → n ∈ L → (∀ n' ∈ L, n' ≠ n → ∀ r, step r n' k = r k) → ∀ r, L.foldl step r k = val (r k)
  | [], _, hn, _, _ => absurd hn List.not_mem_nil
  | a :: L, hnd, hn, hmiss, r => by
    rw [List.foldl_cons]
    have hnd' := List.nodup_cons.mp hnd
    by_cases ha : a = n
    · subst ha
      rw [foldl_apply_of_miss step k L (fun n' hn' =>
        hmiss n' (List.mem_cons_of_mem _ hn') (fun e => hnd'.1 (e ▸ hn'))), hhit]
    · have hnL : n ∈ L := (List.mem_cons.mp hn).resolve_left (fun e => ha e.symm)
      rw [foldl_apply_of_hit step k n val hhit L hnd'.2 hnL
        (fun n' hn' => hmiss n' (List.mem_cons_of_mem _ hn')), hmiss a List.mem_cons_self ha]

end Fold

section Scatter
variable {α : Type} {s si u : Shape} {w : Nat}

/-- A scatter read at a result index on which NO update position lands: the operand's element. -/
theorem Host.scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_miss _ i _ (fun n _ r => ?_) x
  generalize hq : d.resultIdx? (u.rowMajor.symm n) idx = q
  cases q with
  | none => rfl
  | some i₀ =>
    have hne : i ≠ i₀ := fun e => h _ (e ▸ hq)
    show (if i = i₀ then f (r i₀) (upd (u.rowMajor.symm n)) else r i) = r i
    rw [if_neg hne]

/-- A scatter read at a result index on which EXACTLY ONE update position `j` lands: the body of the operand's
    element and that update's element. -/
theorem Host.scatter_apply_of_hit (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  unfold Host.scatter
  refine foldl_apply_of_hit _ i (u.rowMajor j) (fun a => f a (upd j)) (fun r => ?_) _
    (List.nodup_finRange _) (List.mem_finRange _) (fun n' _ hne r => ?_) x
  · rw [Equiv.symm_apply_apply, hj]
    show (if i = i then f (r i) (upd j) else r i) = f (r i) (upd j)
    rw [if_pos rfl]
  · generalize hq : d.resultIdx? (u.rowMajor.symm n') idx = q
    cases q with
    | none => rfl
    | some i₀ =>
      have hne' : i ≠ i₀ := fun e => hne (by
        have := huniq _ (e ▸ hq)
        rw [← this, Equiv.apply_symm_apply])
      show (if i = i₀ then f (r i₀) (upd (u.rowMajor.symm n')) else r i) = r i
      rw [if_neg hne']

end Scatter

end Idealize.ShloMosaic
-- ==== Proof.ScoreColumn.lean ====
/-
  The score column: the padded decoder read at column 0 is the link score.

  Before the decoder region the weight column `x14` (128 by 1) is written into column 0 of a 128 by 128 array of zeros,
  and the one bias `x15` into entry `(0, 0)` of a 1 by 128 row of zeros; after the region column 0 of the 200000 by 128
  result is taken as a vector.  Column 0 of `decode` reads only column 0 of the padded weight and entry `(0, 0)` of the
  padded bias, which are `x14` and `x15`; so the vector is `score` with the weight column `x14` and the bias `x15`.
  The zeros of the padding are never read.
-/
import proofs.«164234_j4964982194352_1_alg».proof.Proof.Gen.KernelIdeal.Launch
import proofs.«164234_j4964982194352_1_alg».proof.Proof.LinkSage
import proofs.«164234_j4964982194352_1_alg».proof.Proof.LibScatterRead
import Idealize.ShloMosaic.Lib.ValueLayout
import Idealize.ShloMosaic.Lib.Pipeline.Value

noncomputable section

namespace Cert.KernelIdeal.ScoreColumn

open Idealize.ShloMosaic Idealize.ShloMosaic.ValueIdx

/-! ## Two layout reads -/

/-- An `[a, 1]` array cast to `[a]` reads, at `p`, the operand at `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- The shape `[1]` has one index. -/
theorem idx_one_eq (i i' : S1.Idx) : i = i' := by
  obtain ⟨a, rfl⟩ : ∃ a : Fin 1, i = ix1 a := ⟨i 0, eq_ix1 i⟩
  obtain ⟨a', rfl⟩ : ∃ a' : Fin 1, i' = ix1 a' := ⟨i' 0, eq_ix1 i'⟩
  exact congrArg ix1 (Subsingleton.elim a a')

/-! ## The padded weight -/

/-- The index array `[0]` of the weight's scatter. -/
abbrev weightStart : IVec S1 32 := broadcastInDim S1 ![] Gen.bcast_S_S1 (constantI S_ 32 0#32)

/-- The weight column written into column 0 of a 128 by 128 array of zeros. -/
def padWeight (x14 : FVec Ideal S128x1 .f32) : FVec Ideal S128x128 .f32 :=
  Host.scatter scatter_S128x128_S1_S128_0_1_1_0 (fun _ b => b)
    (broadcastInDim S128x128 ![] Gen.bcast_S_S128x128 (constant (F := Ideal) S_ .f32 0x00000000#32))
    (broadcastInDim S1 ![] Gen.bcast_S_S1 (constantI S_ 32 0#32))
    (shapeCast S128 x14 Gen.shapeCasts_S128x1_S128)

/-- Update position `k` of the weight's scatter lands on `(k, 0)`. -/
theorem weight_lands : ∀ k : Fin 128,
    scatter_S128x128_S1_S128_0_1_1_0.resultIdx? (ix1 k) weightStart = some (ix2 k (0 : Fin 128)) := by
  decide +kernel

/-- Column 0 of the padded weight is the weight column. -/
theorem padWeight_col (x14 : FVec Ideal S128x1 .f32) (k : Fin 128) :
    padWeight x14 (ix2 k (0 : Fin 128)) = x14 (ix2 k (0 : Fin 1)) := by
  unfold padWeight
  refine (Host.scatter_apply_of_hit scatter_S128x128_S1_S128_0_1_1_0 (fun _ b => b) _ weightStart _
    (ix2 k (0 : Fin 128)) (ix1 k) (weight_lands k) fun j' hj' => ?_).trans ?_
  · obtain ⟨k', rfl⟩ : ∃ k' : Fin 128, j' = ix1 k' := ⟨j' 0, eq_ix1 j'⟩
    rw [weight_lands k'] at hj'
    have e : k' = k := congrFun (Option.some.inj hj') 0
    rw [e]
  · exact shapeCast_a1_a_apply x14 _ k

/-! ## The padded bias -/

/-- The index array `[0, 0]` of the bias's scatter. -/
abbrev biasStart : IVec S2 32 :=
  concatenate S2 0 [⟨S1, broadcastInDim S1 ![] Gen.bcast_S_S1 (constantI S_ 32 0#32)⟩,
    ⟨S1, broadcastInDim S1 ![] Gen.bcast_S_S1 (constantI S_ 32 0#32)⟩] Gen.concatenates_S1_S1_S2_d0

/-- The bias written into entry `(0, 0)` of a 1 by 128 row of zeros. -/
def padBias (x15 : FVec Ideal S1 .f32) : FVec Ideal S1x128 .f32 :=
  Host.scatter scatter_S1x128_S2_S__n_01_01_0 (fun _ b => b)
    (broadcastInDim S1x128 ![] Gen.bcast_S_S1x128 (constant (F := Ideal) S_ .f32 0x00000000#32))
    (concatenate S2 0 [⟨S1, broadcastInDim S1 ![] Gen.bcast_S_S1 (constantI S_ 32 0#32)⟩,
      ⟨S1, broadcastInDim S1 ![] Gen.bcast_S_S1 (constantI S_ 32 0#32)⟩] Gen.concatenates_S1_S1_S2_d0)
    (shapeCast S_ x15 Gen.shapeCasts_S1_S_)

/-- The one update position of the bias's scatter lands on `(0, 0)`. -/
theorem bias_lands :
    scatter_S1x128_S2_S__n_01_01_0.resultIdx? ix0 biasStart = some (ix2 (0 : Fin 1) (0 : Fin 128)) := by
  decide +kernel

/-- Entry `(0, 0)` of the padded bias is the bias. -/
theorem padBias_entry (x15 : FVec Ideal S1 .f32) :
    padBias x15 (ix2 (0 : Fin 1) (0 : Fin 128)) = x15 (ix1 (0 : Fin 1)) := by
  unfold padBias
  refine (Host.scatter_apply_of_hit scatter_S1x128_S2_S__n_01_01_0 (fun _ b => b) _ biasStart _
    (ix2 (0 : Fin 1) (0 : Fin 128)) ix0 bias_lands fun j' _ => eq_ix0 j').trans ?_
  unfold shapeCast
  exact congrArg x15 (idx_one_eq _ _)

/-! ## The score -/

/-- Column 0 of the decoder with the padded weight and bias, as a vector, is the link score. -/
theorem score_eq (pair : FVec Ideal S200000x256 .f32) (w1 : FVec Ideal S256x128 .f32) (r1 : FVec Ideal S1x128 .f32)
    (x14 : FVec Ideal S128x1 .f32) (x15 : FVec Ideal S1 .f32) :
    shapeCast S200000 (extractStridedSlice S200000x1 ![0, 0]
        (LinkSage.decode (M := 200000) pair w1 r1 (padWeight x14) (padBias x15)) Gen.slices_S200000x128_S200000x1_0_0)
        Gen.shapeCasts_S200000x1_S200000
      = LinkSage.score pair w1 r1 (fun j => x14 (ix2 j (0 : Fin 1))) (x15 (ix1 (0 : Fin 1))) := by
  funext i
  obtain ⟨r, rfl⟩ : ∃ r : Fin 200000, i = ix1 r := ⟨i 0, eq_ix1 i⟩
  refine (shapeCast_a1_a_apply _ _ r).trans ?_
  refine (slice2_axis1_apply 0 _ _ r (0 : Fin 1) (0 : Fin 128) rfl).trans ?_
  rw [LinkSage.decode_apply, padBias_entry]
  show _ = ∑ j : Fin 128, LinkSage.hidden pair w1 r1 (ix2 r j) * x14 (ix2 j (0 : Fin 1)) + x15 (ix1 (0 : Fin 1))
  refine congrArg₂ (· + ·) (Finset.sum_congr rfl fun j _ => ?_) rfl
  rw [padWeight_col]

end Cert.KernelIdeal.ScoreColumn

end
-- ==== Proof.StretchEnds.lean ====
/-
  The first, the last-but-one and the last stretch of host operations of the idealized kernel program, read from any
  buffer contents `P` they start from.

  The first stretch splits the edge list into its source and target rows, counts the edges arriving at every node,
  forms the column of quotients `1 / max (count, 1)`, and computes the first layer's neighbourhood means: the rows of
  the node features gathered at the edge sources, added up at the edge targets, each row multiplied by its quotient.
  The stretch before the decoder gathers the last layer's rows at both ends of every labelled pair and joins them side
  by side, lays the hidden bias out as a row, and pads the output weight column and bias to full width with zeros.
  The last stretch takes column 0 of the decoder's output as a vector.  No stretch writes an argument array.
-/
import proofs.«164234_j4964982194352_1_alg».proof.Proof.Gen.KernelIdeal.Frame
import proofs.«164234_j4964982194352_1_alg».proof.Proof.RefSide
import proofs.«164234_j4964982194352_1_alg».proof.Proof.LibRowOfVector
import proofs.«164234_j4964982194352_1_alg».proof.Proof.ScoreColumn

set_option maxRecDepth 16384

noncomputable section

namespace Cert.KernelIdeal.StretchEnds

open Cert.KernelIdeal Cert.KernelIdeal.Gen
open Idealize.ShloMosaic Idealize.ShloMosaic.TcCoe Idealize.SL.Sem Idealize.ShloMosaic.StableHlo
open Cert.ReferenceIdeal.Tower (meanMul invCol rowOf pairOf)

/-- Reads one buffer after a literal stretch of operations and compares the operations' term with the stated one. -/
local macro "read_stretch" ops:ident : tactic => `(tactic| (dsimp only [$ops:ident]; after_results_simp; all_goals rfl))

/-- A bias vector reshaped to one row is the vector spread along the row. -/
theorem reshape_row (b : FVec Ideal S128 .f32) : (fun i => shapeCast S1x128 b shapeCasts_S128_S1x128 i) = rowOf b :=
  Idealize.ShloMosaic.RowOfVector.shapeCast_eq_broadcastInDim 128 b _ _

/-! ## The first stretch -/

theorem first_src (P : Valuation τ sig (Elt Ideal)) :
    StableHlo.after hostOps0 P (Proc.devRef .tc main_v1) = Cert.ReferenceIdeal.Read.val_main_v1 (F := Ideal) (P (Proc.devRef .tc main_arg1)) := by
  read_stretch hostOps0

theorem first_dst (P : Valuation τ sig (Elt Ideal)) :
    StableHlo.after hostOps0 P (Proc.devRef .tc main_v3) = Cert.ReferenceIdeal.Read.val_main_v3 (F := Ideal) (P (Proc.devRef .tc main_arg1)) := by
  read_stretch hostOps0

theorem first_inv (P : Valuation τ sig (Elt Ideal)) :
    StableHlo.after hostOps0 P (Proc.devRef .tc main_v12) = invCol (P (Proc.devRef .tc main_arg1)) := by
  read_stretch hostOps0

theorem first_mean (P : Valuation τ sig (Elt Ideal)) :
    StableHlo.after hostOps0 P (Proc.devRef .tc main_v24) = meanMul (P (Proc.devRef .tc main_arg1)) (P (Proc.devRef .tc main_arg0)) := by
  read_stretch hostOps0

theorem first_row (P : Valuation τ sig (Elt Ideal)) :
    StableHlo.after hostOps0 P (Proc.devRef .tc main_v25) = rowOf (P (Proc.devRef .tc main_arg4)) := by
  refine Eq.trans ?_ (reshape_row (P (Proc.devRef .tc main_arg4)))
  read_stretch hostOps0

theorem kept0_arg0 (P : Valuation τ sig (Elt Ideal)) :
    StableHlo.after hostOps0 P (Proc.devRef .tc main_arg0) = P (Proc.devRef .tc main_arg0) := by read_stretch hostOps0
theorem kept0_arg2 (P : Valuation τ sig (Elt Ideal)) :
    StableHlo.after hostOps0 P (Proc.devRef .tc main_arg2) = P (Proc.devRef .tc main_arg2) := by read_stretch hostOps0
theorem kept0_arg3 (P : Valuation τ sig (Elt Ideal)) :
    StableHlo.after hostOps0 P (Proc.devRef .tc main_arg3) = P (Proc.devRef .tc main_arg3) := by read_stretch hostOps0
theorem kept0_arg5 (P : Valuation τ sig (Elt Ideal)) :
    StableHlo.after hostOps0 P (Proc.devRef .tc main_arg5) = P (Proc.devRef .tc main_arg5) := by read_stretch hostOps0
theorem kept0_arg6 (P : Valuation τ sig (Elt Ideal)) :
    StableHlo.after hostOps0 P (Proc.devRef .tc main_arg6) = P (Proc.devRef .tc main_arg6) := by read_stretch hostOps0
theorem kept0_arg7 (P : Valuation τ sig (Elt Ideal)) :
    StableHlo.after hostOps0 P (Proc.devRef .tc main_arg7) = P (Proc.devRef .tc main_arg7) := by read_stretch hostOps0
theorem kept0_arg8 (P : Valuation τ sig (Elt Ideal)) :
    StableHlo.after hostOps0 P (Proc.devRef .tc main_arg8) = P (Proc.devRef .tc main_arg8) := by read_stretch hostOps0
theorem kept0_arg9 (P : Valuation τ sig (Elt Ideal)) :
    StableHlo.after hostOps0 P (Proc.devRef .tc main_arg9) = P (Proc.devRef .tc main_arg9) := by read_stretch hostOps0
theorem kept0_arg10 (P : Valuation τ sig (Elt Ideal)) :
    StableHlo.after hostOps0 P (Proc.devRef .tc main_arg10) = P (Proc.devRef .tc main_arg10) := by read_stretch hostOps0
theorem kept0_arg11 (P : Valuation τ sig (Elt Ideal)) :
    StableHlo.after hostOps0 P (Proc.devRef .tc main_arg11) = P (Proc.devRef .tc main_arg11) := by read_stretch hostOps0
theorem kept0_arg12 (P : Valuation τ sig (Elt Ideal)) :
    StableHlo.after hostOps0 P (Proc.devRef .tc main_arg12) = P (Proc.devRef .tc main_arg12) := by read_stretch hostOps0
theorem kept0_arg13 (P : Valuation τ sig (Elt Ideal)) :
    StableHlo.after hostOps0 P (Proc.devRef .tc main_arg13) = P (Proc.devRef .tc main_arg13) := by read_stretch hostOps0
theorem kept0_arg14 (P : Valuation τ sig (Elt Ideal)) :
    StableHlo.after hostOps0 P (Proc.devRef .tc main_arg14) = P (Proc.devRef .tc main_arg14) := by read_stretch hostOps0
theorem kept0_arg15 (P : Valuation τ sig (Elt Ideal)) :
    StableHlo.after hostOps0 P (Proc.devRef .tc main_arg15) = P (Proc.devRef .tc main_arg15) := by read_stretch hostOps0

/-! ## The two middle stretches leave the later arguments alone -/

theorem kept1_arg2 (P : Valuation τ sig (Elt Ideal)) :
    StableHlo.after hostOps1 P (Proc.devRef .tc main_arg2) = P (Proc.devRef .tc main_arg2) := by read_stretch hostOps1
theorem kept1_arg9 (P : Valuation τ sig (Elt Ideal)) :
    StableHlo.after hostOps1 P (Proc.devRef .tc main_arg9) = P (Proc.devRef .tc main_arg9) := by read_stretch hostOps1
theorem kept1_arg10 (P : Valuation τ sig (Elt Ideal)) :
    StableHlo.after hostOps1 P (Proc.devRef .tc main_arg10) = P (Proc.devRef .tc main_arg10) := by read_stretch hostOps1
theorem kept1_arg11 (P : Valuation τ sig (Elt Ideal)) :
    StableHlo.after hostOps1 P (Proc.devRef .tc main_arg11) = P (Proc.devRef .tc main_arg11) := by read_stretch hostOps1
theorem kept1_arg12 (P : Valuation τ sig (Elt Ideal)) :
    StableHlo.after hostOps1 P (Proc.devRef .tc main_arg12) = P (Proc.devRef .tc main_arg12) := by read_stretch hostOps1
theorem kept1_arg13 (P : Valuation τ sig (Elt Ideal)) :
    StableHlo.after hostOps1 P (Proc.devRef .tc main_arg13) = P (Proc.devRef .tc main_arg13) := by read_stretch hostOps1
theorem kept1_arg14 (P : Valuation τ sig (Elt Ideal)) :
    StableHlo.after hostOps1 P (Proc.devRef .tc main_arg14) = P (Proc.devRef .tc main_arg14) := by read_stretch hostOps1
theorem kept1_arg15 (P : Valuation τ sig (Elt Ideal)) :
    StableHlo.after hostOps1 P (Proc.devRef .tc main_arg15) = P (Proc.devRef .tc main_arg15) := by read_stretch hostOps1
theorem kept2_arg2 (P : Valuation τ sig (Elt Ideal)) :
    StableHlo.after hostOps2 P (Proc.devRef .tc main_arg2) = P (Proc.devRef .tc main_arg2) := by read_stretch hostOps2
theorem kept2_arg12 (P : Valuation τ sig (Elt Ideal)) :
    StableHlo.after hostOps2 P (Proc.devRef .tc main_arg12) = P (Proc.devRef .tc main_arg12) := by read_stretch hostOps2
theorem kept2_arg13 (P : Valuation τ sig (Elt Ideal)) :
    StableHlo.after hostOps2 P (Proc.devRef .tc main_arg13) = P (Proc.devRef .tc main_arg13) := by read_stretch hostOps2
theorem kept2_arg14 (P : Valuation τ sig (Elt Ideal)) :
    StableHlo.after hostOps2 P (Proc.devRef .tc main_arg14) = P (Proc.devRef .tc main_arg14) := by read_stretch hostOps2
theorem kept2_arg15 (P : Valuation τ sig (Elt Ideal)) :
    StableHlo.after hostOps2 P (Proc.devRef .tc main_arg15) = P (Proc.devRef .tc main_arg15) := by read_stretch hostOps2

/-! ## The stretch before the decoder -/

theorem last_pair (P : Valuation τ sig (Elt Ideal)) :
    StableHlo.after hostOps3 P (Proc.devRef .tc main_v73) = pairOf (P (Proc.devRef .tc main_arg2)) (P (Proc.devRef .tc main_v54)) := by
  read_stretch hostOps3

theorem last_row (P : Valuation τ sig (Elt Ideal)) :
    StableHlo.after hostOps3 P (Proc.devRef .tc main_v84) = rowOf (P (Proc.devRef .tc main_arg13)) := by
  refine Eq.trans ?_ (reshape_row (P (Proc.devRef .tc main_arg13)))
  read_stretch hostOps3

theorem last_weight (P : Valuation τ sig (Elt Ideal)) :
    StableHlo.after hostOps3 P (Proc.devRef .tc main_v77) = ScoreColumn.padWeight (P (Proc.devRef .tc main_arg14)) := by
  read_stretch hostOps3

theorem last_bias (P : Valuation τ sig (Elt Ideal)) :
    StableHlo.after hostOps3 P (Proc.devRef .tc main_v83) = ScoreColumn.padBias (P (Proc.devRef .tc main_arg15)) := by
  read_stretch hostOps3

theorem kept3_arg12 (P : Valuation τ sig (Elt Ideal)) :
    StableHlo.after hostOps3 P (Proc.devRef .tc main_arg12) = P (Proc.devRef .tc main_arg12) := by read_stretch hostOps3

/-! ## The last stretch -/

theorem out_column (P : Valuation τ sig (Elt Ideal)) :
    StableHlo.after hostOps4 P (Proc.devRef .tc main_v87)
      = shapeCast S200000 (extractStridedSlice S200000x1 ![0, 0] (P (Proc.devRef .tc main_v85)) slices_S200000x128_S200000x1_0_0) shapeCasts_S200000x1_S200000 := by
  read_stretch hostOps4

end Cert.KernelIdeal.StretchEnds

end
-- ==== Proof.StretchMid.lean ====
/-
  The two middle stretches of host operations, read from any contents they start from.

  Between two graph layers the host prepares the next layer's operands from the previous layer's output `h`: it
  normalises the edge sources (a negative index has the number of nodes added), gathers the rows of `h` at them, adds
  the gathered rows up at the edge targets starting from zero, multiplies row `p` of the sums by the quotient
  `1 / max (count p, 1)` (a column computed before the first layer, spread over the 128 features), and lays the next
  bias vector out as a row. Each result is a function of whole arrays: the neighbourhood means by multiplication
  (`meanMul`) of `h`, and the bias vector as a row (`rowOf`). The stretch writes nothing else that a later layer reads:
  the previous output, the weights, the two halves of the edge list and the quotient column are as before.
-/
import proofs.«164234_j4964982194352_1_alg».proof.Proof.Gen.KernelIdeal.Frame
import proofs.«164234_j4964982194352_1_alg».proof.Proof.RefSide
import proofs.«164234_j4964982194352_1_alg».proof.Proof.LibRowOfVector

set_option maxRecDepth 16384

noncomputable section

namespace Cert.KernelIdeal.StretchMid

open Cert.KernelIdeal Cert.KernelIdeal.Gen
open Idealize.ShloMosaic Idealize.ShloMosaic.TcCoe Idealize.SL.Sem Idealize.ShloMosaic.StableHlo
open Cert.ReferenceIdeal.Tower (meanMul invCol rowOf)

variable (P : Valuation τ sig (Elt Ideal))

/-! ## The first middle stretch -/

/-- The stretch leaves in `main_v38` the neighbourhood means, by multiplication with the column of quotients, of the
    previous layer's output `main_v26`: it normalises the edge sources, gathers the rows of `main_v26` at them, adds
    them up at the edge targets from zero, and multiplies by the quotient column spread over the 128 features. -/
theorem mean1 (x1 : Cert.ReferenceIdeal.Tower.Edges)
    (h1 : P (Proc.devRef .tc main_v1) = Cert.ReferenceIdeal.Read.val_main_v1 (F := Ideal) x1)
    (h3 : P (Proc.devRef .tc main_v3) = Cert.ReferenceIdeal.Read.val_main_v3 (F := Ideal) x1)
    (h12 : P (Proc.devRef .tc main_v12) = invCol x1) :
    StableHlo.after hostOps1 P (Proc.devRef .tc main_v38) = meanMul x1 (P (Proc.devRef .tc main_v26)) := by
  dsimp only [hostOps1]
  after_results_simp
  rw [h1, h3, h12]
  rfl

/-- The stretch leaves in `main_v39` the bias vector `main_arg7` as a row: the reshape of a vector to one row is
    its broadcast along the second axis. -/
theorem row1 : StableHlo.after hostOps1 P (Proc.devRef .tc main_v39) = rowOf (P (Proc.devRef .tc main_arg7)) := by
  dsimp only [hostOps1]
  after_results_simp
  exact Idealize.ShloMosaic.RowOfVector.shapeCast_eq_broadcastInDim 128 (P (Proc.devRef .tc main_arg7)) _ _

/-- No operation of the stretch writes `main_v26`. -/
theorem kept1_v26 : StableHlo.after hostOps1 P (Proc.devRef .tc main_v26) = P (Proc.devRef .tc main_v26) := by
  dsimp only [hostOps1]
  after_results_simp

/-- No operation of the stretch writes `main_arg6`. -/
theorem kept1_arg6 : StableHlo.after hostOps1 P (Proc.devRef .tc main_arg6) = P (Proc.devRef .tc main_arg6) := by
  dsimp only [hostOps1]
  after_results_simp

/-- No operation of the stretch writes `main_arg8`. -/
theorem kept1_arg8 : StableHlo.after hostOps1 P (Proc.devRef .tc main_arg8) = P (Proc.devRef .tc main_arg8) := by
  dsimp only [hostOps1]
  after_results_simp

/-- No operation of the stretch writes `main_v1`. -/
theorem kept1_v1 : StableHlo.after hostOps1 P (Proc.devRef .tc main_v1) = P (Proc.devRef .tc main_v1) := by
  dsimp only [hostOps1]
  after_results_simp

/-- No operation of the stretch writes `main_v3`. -/
theorem kept1_v3 : StableHlo.after hostOps1 P (Proc.devRef .tc main_v3) = P (Proc.devRef .tc main_v3) := by
  dsimp only [hostOps1]
  after_results_simp

/-- No operation of the stretch writes `main_v12`. -/
theorem kept1_v12 : StableHlo.after hostOps1 P (Proc.devRef .tc main_v12) = P (Proc.devRef .tc main_v12) := by
  dsimp only [hostOps1]
  after_results_simp

/-! ## The second middle stretch -/

/-- The stretch leaves in `main_v52` the neighbourhood means, by multiplication with the column of quotients, of the
    previous layer's output `main_v40`: it normalises the edge sources, gathers the rows of `main_v40` at them, adds
    them up at the edge targets from zero, and multiplies by the quotient column spread over the 128 features. -/
theorem mean2 (x1 : Cert.ReferenceIdeal.Tower.Edges)
    (h1 : P (Proc.devRef .tc main_v1) = Cert.ReferenceIdeal.Read.val_main_v1 (F := Ideal) x1)
    (h3 : P (Proc.devRef .tc main_v3) = Cert.ReferenceIdeal.Read.val_main_v3 (F := Ideal) x1)
    (h12 : P (Proc.devRef .tc main_v12) = invCol x1) :
    StableHlo.after hostOps2 P (Proc.devRef .tc main_v52) = meanMul x1 (P (Proc.devRef .tc main_v40)) := by
  dsimp only [hostOps2]
  after_results_simp
  rw [h1, h3, h12]
  rfl

/-- The stretch leaves in `main_v53` the bias vector `main_arg10` as a row: the reshape of a vector to one row is
    its broadcast along the second axis. -/
theorem row2 : StableHlo.after hostOps2 P (Proc.devRef .tc main_v53) = rowOf (P (Proc.devRef .tc main_arg10)) := by
  dsimp only [hostOps2]
  after_results_simp
  exact Idealize.ShloMosaic.RowOfVector.shapeCast_eq_broadcastInDim 128 (P (Proc.devRef .tc main_arg10)) _ _

/-- No operation of the stretch writes `main_v40`. -/
theorem kept2_v40 : StableHlo.after hostOps2 P (Proc.devRef .tc main_v40) = P (Proc.devRef .tc main_v40) := by
  dsimp only [hostOps2]
  after_results_simp

/-- No operation of the stretch writes `main_arg9`. -/
theorem kept2_arg9 : StableHlo.after hostOps2 P (Proc.devRef .tc main_arg9) = P (Proc.devRef .tc main_arg9) := by
  dsimp only [hostOps2]
  after_results_simp

/-- No operation of the stretch writes `main_arg11`. -/
theorem kept2_arg11 : StableHlo.after hostOps2 P (Proc.devRef .tc main_arg11) = P (Proc.devRef .tc main_arg11) := by
  dsimp only [hostOps2]
  after_results_simp

end Cert.KernelIdeal.StretchMid

end
-- ==== Proof.KernelValue.lean ====
/-
  The idealized kernel program's result as the three-layer network of `LinkSage`, with the neighbourhood means
  written as products with the column of quotients.

  The buffer contents are followed through @main's nine segments.  Each host stretch is read at the buffers the next
  region enters with; each region leaves its output array at one whole-array function of the arrays it entered with
  (its blocks of 5000 rows tile the array, and row `p` of the result depends on row `p` of the row-indexed operands
  only); every other buffer passes through a region unchanged, and no stretch writes an argument.  Composing the four
  layers gives `tower (meanMul x1) …` of the launch contents of the arguments.
-/
import proofs.«164234_j4964982194352_1_alg».proof.Proof.Region0
import proofs.«164234_j4964982194352_1_alg».proof.Proof.Region1
import proofs.«164234_j4964982194352_1_alg».proof.Proof.Region2
import proofs.«164234_j4964982194352_1_alg».proof.Proof.Region3
import proofs.«164234_j4964982194352_1_alg».proof.Proof.StretchEnds
import proofs.«164234_j4964982194352_1_alg».proof.Proof.StretchMid
import proofs.«164234_j4964982194352_1_alg».proof.Proof.ScoreColumn
import proofs.«164234_j4964982194352_1_alg».proof.Proof.RefSide

set_option maxRecDepth 16384

noncomputable section

namespace Cert.KernelIdeal.Chain

open Cert.KernelIdeal Cert.KernelIdeal.Gen Cert.KernelIdeal.StretchEnds
open Idealize.ShloMosaic Idealize.ShloMosaic.TcCoe Idealize.SL.Sem Idealize.ShloMosaic.StableHlo Idealize.ShloMosaic.ValueIdx
open Cert.ReferenceIdeal.Tower (meanMul invCol rowOf pairOf tower)
open Cert.LinkSage (combine combineRelu decode score)

variable (m : (ℓ : Loc nD τ sig) → Buf (Elt Ideal) ℓ) (ρ : Dev nD → PrngReg) (c : Dev nD)

/-! ## The arguments at every boundary -/

theorem arg0_W1 : W1 m ρ c (Proc.devRef .tc main_arg0) = m ((c : Thread nD τ).loc main_arg0) := kept0_arg0 (W0 m ρ c)
theorem arg2_W1 : W1 m ρ c (Proc.devRef .tc main_arg2) = m ((c : Thread nD τ).loc main_arg2) := kept0_arg2 (W0 m ρ c)
theorem arg3_W1 : W1 m ρ c (Proc.devRef .tc main_arg3) = m ((c : Thread nD τ).loc main_arg3) := kept0_arg3 (W0 m ρ c)
theorem arg5_W1 : W1 m ρ c (Proc.devRef .tc main_arg5) = m ((c : Thread nD τ).loc main_arg5) := kept0_arg5 (W0 m ρ c)
theorem arg6_W1 : W1 m ρ c (Proc.devRef .tc main_arg6) = m ((c : Thread nD τ).loc main_arg6) := kept0_arg6 (W0 m ρ c)
theorem arg7_W1 : W1 m ρ c (Proc.devRef .tc main_arg7) = m ((c : Thread nD τ).loc main_arg7) := kept0_arg7 (W0 m ρ c)
theorem arg8_W1 : W1 m ρ c (Proc.devRef .tc main_arg8) = m ((c : Thread nD τ).loc main_arg8) := kept0_arg8 (W0 m ρ c)
theorem arg9_W1 : W1 m ρ c (Proc.devRef .tc main_arg9) = m ((c : Thread nD τ).loc main_arg9) := kept0_arg9 (W0 m ρ c)
theorem arg10_W1 : W1 m ρ c (Proc.devRef .tc main_arg10) = m ((c : Thread nD τ).loc main_arg10) := kept0_arg10 (W0 m ρ c)
theorem arg11_W1 : W1 m ρ c (Proc.devRef .tc main_arg11) = m ((c : Thread nD τ).loc main_arg11) := kept0_arg11 (W0 m ρ c)
theorem arg12_W1 : W1 m ρ c (Proc.devRef .tc main_arg12) = m ((c : Thread nD τ).loc main_arg12) := kept0_arg12 (W0 m ρ c)
theorem arg13_W1 : W1 m ρ c (Proc.devRef .tc main_arg13) = m ((c : Thread nD τ).loc main_arg13) := kept0_arg13 (W0 m ρ c)
theorem arg14_W1 : W1 m ρ c (Proc.devRef .tc main_arg14) = m ((c : Thread nD τ).loc main_arg14) := kept0_arg14 (W0 m ρ c)
theorem arg15_W1 : W1 m ρ c (Proc.devRef .tc main_arg15) = m ((c : Thread nD τ).loc main_arg15) := kept0_arg15 (W0 m ρ c)
theorem arg2_W2 : W2 m ρ c (Proc.devRef .tc main_arg2) = m ((c : Thread nD τ).loc main_arg2) := (W2_of_ne m ρ c main_arg2 (by decide)).trans (arg2_W1 m ρ c)
theorem arg6_W2 : W2 m ρ c (Proc.devRef .tc main_arg6) = m ((c : Thread nD τ).loc main_arg6) := (W2_of_ne m ρ c main_arg6 (by decide)).trans (arg6_W1 m ρ c)
theorem arg7_W2 : W2 m ρ c (Proc.devRef .tc main_arg7) = m ((c : Thread nD τ).loc main_arg7) := (W2_of_ne m ρ c main_arg7 (by decide)).trans (arg7_W1 m ρ c)
theorem arg8_W2 : W2 m ρ c (Proc.devRef .tc main_arg8) = m ((c : Thread nD τ).loc main_arg8) := (W2_of_ne m ρ c main_arg8 (by decide)).trans (arg8_W1 m ρ c)
theorem arg9_W2 : W2 m ρ c (Proc.devRef .tc main_arg9) = m ((c : Thread nD τ).loc main_arg9) := (W2_of_ne m ρ c main_arg9 (by decide)).trans (arg9_W1 m ρ c)
theorem arg10_W2 : W2 m ρ c (Proc.devRef .tc main_arg10) = m ((c : Thread nD τ).loc main_arg10) := (W2_of_ne m ρ c main_arg10 (by decide)).trans (arg10_W1 m ρ c)
theorem arg11_W2 : W2 m ρ c (Proc.devRef .tc main_arg11) = m ((c : Thread nD τ).loc main_arg11) := (W2_of_ne m ρ c main_arg11 (by decide)).trans (arg11_W1 m ρ c)
theorem arg12_W2 : W2 m ρ c (Proc.devRef .tc main_arg12) = m ((c : Thread nD τ).loc main_arg12) := (W2_of_ne m ρ c main_arg12 (by decide)).trans (arg12_W1 m ρ c)
theorem arg13_W2 : W2 m ρ c (Proc.devRef .tc main_arg13) = m ((c : Thread nD τ).loc main_arg13) := (W2_of_ne m ρ c main_arg13 (by decide)).trans (arg13_W1 m ρ c)
theorem arg14_W2 : W2 m ρ c (Proc.devRef .tc main_arg14) = m ((c : Thread nD τ).loc main_arg14) := (W2_of_ne m ρ c main_arg14 (by decide)).trans (arg14_W1 m ρ c)
theorem arg15_W2 : W2 m ρ c (Proc.devRef .tc main_arg15) = m ((c : Thread nD τ).loc main_arg15) := (W2_of_ne m ρ c main_arg15 (by decide)).trans (arg15_W1 m ρ c)
theorem arg2_W3 : W3 m ρ c (Proc.devRef .tc main_arg2) = m ((c : Thread nD τ).loc main_arg2) := (kept1_arg2 (W2 m ρ c)).trans (arg2_W2 m ρ c)
theorem arg6_W3 : W3 m ρ c (Proc.devRef .tc main_arg6) = m ((c : Thread nD τ).loc main_arg6) := (StretchMid.kept1_arg6 (W2 m ρ c)).trans (arg6_W2 m ρ c)
theorem arg8_W3 : W3 m ρ c (Proc.devRef .tc main_arg8) = m ((c : Thread nD τ).loc main_arg8) := (StretchMid.kept1_arg8 (W2 m ρ c)).trans (arg8_W2 m ρ c)
theorem arg9_W3 : W3 m ρ c (Proc.devRef .tc main_arg9) = m ((c : Thread nD τ).loc main_arg9) := (kept1_arg9 (W2 m ρ c)).trans (arg9_W2 m ρ c)
theorem arg10_W3 : W3 m ρ c (Proc.devRef .tc main_arg10) = m ((c : Thread nD τ).loc main_arg10) := (kept1_arg10 (W2 m ρ c)).trans (arg10_W2 m ρ c)
theorem arg11_W3 : W3 m ρ c (Proc.devRef .tc main_arg11) = m ((c : Thread nD τ).loc main_arg11) := (kept1_arg11 (W2 m ρ c)).trans (arg11_W2 m ρ c)
theorem arg12_W3 : W3 m ρ c (Proc.devRef .tc main_arg12) = m ((c : Thread nD τ).loc main_arg12) := (kept1_arg12 (W2 m ρ c)).trans (arg12_W2 m ρ c)
theorem arg13_W3 : W3 m ρ c (Proc.devRef .tc main_arg13) = m ((c : Thread nD τ).loc main_arg13) := (kept1_arg13 (W2 m ρ c)).trans (arg13_W2 m ρ c)
theorem arg14_W3 : W3 m ρ c (Proc.devRef .tc main_arg14) = m ((c : Thread nD τ).loc main_arg14) := (kept1_arg14 (W2 m ρ c)).trans (arg14_W2 m ρ c)
theorem arg15_W3 : W3 m ρ c (Proc.devRef .tc main_arg15) = m ((c : Thread nD τ).loc main_arg15) := (kept1_arg15 (W2 m ρ c)).trans (arg15_W2 m ρ c)
theorem arg2_W4 : W4 m ρ c (Proc.devRef .tc main_arg2) = m ((c : Thread nD τ).loc main_arg2) := (W4_of_ne m ρ c main_arg2 (by decide)).trans (arg2_W3 m ρ c)
theorem arg9_W4 : W4 m ρ c (Proc.devRef .tc main_arg9) = m ((c : Thread nD τ).loc main_arg9) := (W4_of_ne m ρ c main_arg9 (by decide)).trans (arg9_W3 m ρ c)
theorem arg10_W4 : W4 m ρ c (Proc.devRef .tc main_arg10) = m ((c : Thread nD τ).loc main_arg10) := (W4_of_ne m ρ c main_arg10 (by decide)).trans (arg10_W3 m ρ c)
theorem arg11_W4 : W4 m ρ c (Proc.devRef .tc main_arg11) = m ((c : Thread nD τ).loc main_arg11) := (W4_of_ne m ρ c main_arg11 (by decide)).trans (arg11_W3 m ρ c)
theorem arg12_W4 : W4 m ρ c (Proc.devRef .tc main_arg12) = m ((c : Thread nD τ).loc main_arg12) := (W4_of_ne m ρ c main_arg12 (by decide)).trans (arg12_W3 m ρ c)
theorem arg13_W4 : W4 m ρ c (Proc.devRef .tc main_arg13) = m ((c : Thread nD τ).loc main_arg13) := (W4_of_ne m ρ c main_arg13 (by decide)).trans (arg13_W3 m ρ c)
theorem arg14_W4 : W4 m ρ c (Proc.devRef .tc main_arg14) = m ((c : Thread nD τ).loc main_arg14) := (W4_of_ne m ρ c main_arg14 (by decide)).trans (arg14_W3 m ρ c)
theorem arg15_W4 : W4 m ρ c (Proc.devRef .tc main_arg15) = m ((c : Thread nD τ).loc main_arg15) := (W4_of_ne m ρ c main_arg15 (by decide)).trans (arg15_W3 m ρ c)
theorem arg2_W5 : W5 m ρ c (Proc.devRef .tc main_arg2) = m ((c : Thread nD τ).loc main_arg2) := (kept2_arg2 (W4 m ρ c)).trans (arg2_W4 m ρ c)
theorem arg9_W5 : W5 m ρ c (Proc.devRef .tc main_arg9) = m ((c : Thread nD τ).loc main_arg9) := (StretchMid.kept2_arg9 (W4 m ρ c)).trans (arg9_W4 m ρ c)
theorem arg11_W5 : W5 m ρ c (Proc.devRef .tc main_arg11) = m ((c : Thread nD τ).loc main_arg11) := (StretchMid.kept2_arg11 (W4 m ρ c)).trans (arg11_W4 m ρ c)
theorem arg12_W5 : W5 m ρ c (Proc.devRef .tc main_arg12) = m ((c : Thread nD τ).loc main_arg12) := (kept2_arg12 (W4 m ρ c)).trans (arg12_W4 m ρ c)
theorem arg13_W5 : W5 m ρ c (Proc.devRef .tc main_arg13) = m ((c : Thread nD τ).loc main_arg13) := (kept2_arg13 (W4 m ρ c)).trans (arg13_W4 m ρ c)
theorem arg14_W5 : W5 m ρ c (Proc.devRef .tc main_arg14) = m ((c : Thread nD τ).loc main_arg14) := (kept2_arg14 (W4 m ρ c)).trans (arg14_W4 m ρ c)
theorem arg15_W5 : W5 m ρ c (Proc.devRef .tc main_arg15) = m ((c : Thread nD τ).loc main_arg15) := (kept2_arg15 (W4 m ρ c)).trans (arg15_W4 m ρ c)
theorem arg2_W6 : W6 m ρ c (Proc.devRef .tc main_arg2) = m ((c : Thread nD τ).loc main_arg2) := (W6_of_ne m ρ c main_arg2 (by decide)).trans (arg2_W5 m ρ c)
theorem arg12_W6 : W6 m ρ c (Proc.devRef .tc main_arg12) = m ((c : Thread nD τ).loc main_arg12) := (W6_of_ne m ρ c main_arg12 (by decide)).trans (arg12_W5 m ρ c)
theorem arg13_W6 : W6 m ρ c (Proc.devRef .tc main_arg13) = m ((c : Thread nD τ).loc main_arg13) := (W6_of_ne m ρ c main_arg13 (by decide)).trans (arg13_W5 m ρ c)
theorem arg14_W6 : W6 m ρ c (Proc.devRef .tc main_arg14) = m ((c : Thread nD τ).loc main_arg14) := (W6_of_ne m ρ c main_arg14 (by decide)).trans (arg14_W5 m ρ c)
theorem arg15_W6 : W6 m ρ c (Proc.devRef .tc main_arg15) = m ((c : Thread nD τ).loc main_arg15) := (W6_of_ne m ρ c main_arg15 (by decide)).trans (arg15_W5 m ρ c)

/-! ## The edge rows and the quotient column at every boundary -/

theorem src_W2 : W2 m ρ c (Proc.devRef .tc main_v1) = Cert.ReferenceIdeal.Read.val_main_v1 (F := Ideal) (m ((c : Thread nD τ).loc main_arg1)) :=
  (W2_of_ne m ρ c main_v1 (by decide)).trans (first_src (W0 m ρ c))
theorem dst_W2 : W2 m ρ c (Proc.devRef .tc main_v3) = Cert.ReferenceIdeal.Read.val_main_v3 (F := Ideal) (m ((c : Thread nD τ).loc main_arg1)) :=
  (W2_of_ne m ρ c main_v3 (by decide)).trans (first_dst (W0 m ρ c))
theorem inv_W2 : W2 m ρ c (Proc.devRef .tc main_v12) = invCol (m ((c : Thread nD τ).loc main_arg1)) :=
  (W2_of_ne m ρ c main_v12 (by decide)).trans (first_inv (W0 m ρ c))
theorem src_W4 : W4 m ρ c (Proc.devRef .tc main_v1) = Cert.ReferenceIdeal.Read.val_main_v1 (F := Ideal) (m ((c : Thread nD τ).loc main_arg1)) :=
  (W4_of_ne m ρ c main_v1 (by decide)).trans ((StretchMid.kept1_v1 (W2 m ρ c)).trans (src_W2 m ρ c))
theorem dst_W4 : W4 m ρ c (Proc.devRef .tc main_v3) = Cert.ReferenceIdeal.Read.val_main_v3 (F := Ideal) (m ((c : Thread nD τ).loc main_arg1)) :=
  (W4_of_ne m ρ c main_v3 (by decide)).trans ((StretchMid.kept1_v3 (W2 m ρ c)).trans (dst_W2 m ρ c))
theorem inv_W4 : W4 m ρ c (Proc.devRef .tc main_v12) = invCol (m ((c : Thread nD τ).loc main_arg1)) :=
  (W4_of_ne m ρ c main_v12 (by decide)).trans ((StretchMid.kept1_v12 (W2 m ρ c)).trans (inv_W2 m ρ c))

/-! ## The layers -/

/-- The first layer's output. -/
def h1 : Cert.ReferenceIdeal.Tower.Nodes :=
  combineRelu (M := 50000) (meanMul (m ((c : Thread nD τ).loc main_arg1)) (m ((c : Thread nD τ).loc main_arg0))) (m ((c : Thread nD τ).loc main_arg0)) (m ((c : Thread nD τ).loc main_arg3)) (rowOf (m ((c : Thread nD τ).loc main_arg4))) (m ((c : Thread nD τ).loc main_arg5))
/-- The second layer's output. -/
def h2 : Cert.ReferenceIdeal.Tower.Nodes :=
  combineRelu (M := 50000) (meanMul (m ((c : Thread nD τ).loc main_arg1)) (h1 m c)) (h1 m c) (m ((c : Thread nD τ).loc main_arg6)) (rowOf (m ((c : Thread nD τ).loc main_arg7))) (m ((c : Thread nD τ).loc main_arg8))
/-- The third layer's output. -/
def h3 : Cert.ReferenceIdeal.Tower.Nodes :=
  combine (M := 50000) (meanMul (m ((c : Thread nD τ).loc main_arg1)) (h2 m c)) (h2 m c) (m ((c : Thread nD τ).loc main_arg9)) (rowOf (m ((c : Thread nD τ).loc main_arg10))) (m ((c : Thread nD τ).loc main_arg11))

theorem out0 : W2 m ρ c (Proc.devRef .tc main_v26) = h1 m c := by
  refine (W2_arr m ρ c 5).trans ((Region0.final (V1 m ρ) c).trans ?_)
  have e0 : V1 m ρ c main_v24 = meanMul (m ((c : Thread nD τ).loc main_arg1)) (m ((c : Thread nD τ).loc main_arg0)) := first_mean (W0 m ρ c)
  have e1 : V1 m ρ c main_arg0 = m ((c : Thread nD τ).loc main_arg0) := arg0_W1 m ρ c
  have e2 : V1 m ρ c main_arg3 = m ((c : Thread nD τ).loc main_arg3) := arg3_W1 m ρ c
  have e3 : V1 m ρ c main_v25 = rowOf (m ((c : Thread nD τ).loc main_arg4)) := first_row (W0 m ρ c)
  have e4 : V1 m ρ c main_arg5 = m ((c : Thread nD τ).loc main_arg5) := arg5_W1 m ρ c
  rw [e0, e1, e2, e3, e4]
  rfl

theorem out1 : W4 m ρ c (Proc.devRef .tc main_v40) = h2 m c := by
  refine (W4_arr m ρ c 5).trans ((Region1.final (V3 m ρ) c).trans ?_)
  have e0 : V3 m ρ c main_v38 = meanMul (m ((c : Thread nD τ).loc main_arg1)) (h1 m c) :=
    (StretchMid.mean1 (W2 m ρ c) (m ((c : Thread nD τ).loc main_arg1)) (src_W2 m ρ c) (dst_W2 m ρ c) (inv_W2 m ρ c)).trans (by rw [out0])
  have e1 : V3 m ρ c main_v26 = h1 m c := (StretchMid.kept1_v26 (W2 m ρ c)).trans (out0 m ρ c)
  have e2 : V3 m ρ c main_arg6 = m ((c : Thread nD τ).loc main_arg6) := arg6_W3 m ρ c
  have e3 : V3 m ρ c main_v39 = rowOf (m ((c : Thread nD τ).loc main_arg7)) := (StretchMid.row1 (W2 m ρ c)).trans (by rw [arg7_W2])
  have e4 : V3 m ρ c main_arg8 = m ((c : Thread nD τ).loc main_arg8) := arg8_W3 m ρ c
  rw [e0, e1, e2, e3, e4]
  rfl

theorem out2 : W6 m ρ c (Proc.devRef .tc main_v54) = h3 m c := by
  refine (W6_arr m ρ c 5).trans ((Region2.final (V5 m ρ) c).trans ?_)
  have e0 : V5 m ρ c main_v52 = meanMul (m ((c : Thread nD τ).loc main_arg1)) (h2 m c) :=
    (StretchMid.mean2 (W4 m ρ c) (m ((c : Thread nD τ).loc main_arg1)) (src_W4 m ρ c) (dst_W4 m ρ c) (inv_W4 m ρ c)).trans (by rw [out1])
  have e1 : V5 m ρ c main_v40 = h2 m c := (StretchMid.kept2_v40 (W4 m ρ c)).trans (out1 m ρ c)
  have e2 : V5 m ρ c main_arg9 = m ((c : Thread nD τ).loc main_arg9) := arg9_W5 m ρ c
  have e3 : V5 m ρ c main_v53 = rowOf (m ((c : Thread nD τ).loc main_arg10)) := (StretchMid.row2 (W4 m ρ c)).trans (by rw [arg10_W4])
  have e4 : V5 m ρ c main_arg11 = m ((c : Thread nD τ).loc main_arg11) := arg11_W5 m ρ c
  rw [e0, e1, e2, e3, e4]
  rfl

theorem out3 : W8 m ρ c (Proc.devRef .tc main_v85)
    = decode (M := 200000) (pairOf (m ((c : Thread nD τ).loc main_arg2)) (h3 m c)) (m ((c : Thread nD τ).loc main_arg12)) (rowOf (m ((c : Thread nD τ).loc main_arg13)))
        (ScoreColumn.padWeight (m ((c : Thread nD τ).loc main_arg14))) (ScoreColumn.padBias (m ((c : Thread nD τ).loc main_arg15))) := by
  refine (W8_arr m ρ c 5).trans ((Region3.final (V7 m ρ) c).trans ?_)
  have e0 : V7 m ρ c main_v73 = pairOf (m ((c : Thread nD τ).loc main_arg2)) (h3 m c) := (last_pair (W6 m ρ c)).trans (by rw [arg2_W6, out2])
  have e1 : V7 m ρ c main_arg12 = m ((c : Thread nD τ).loc main_arg12) := (kept3_arg12 (W6 m ρ c)).trans (arg12_W6 m ρ c)
  have e2 : V7 m ρ c main_v84 = rowOf (m ((c : Thread nD τ).loc main_arg13)) := (last_row (W6 m ρ c)).trans (by rw [arg13_W6])
  have e3 : V7 m ρ c main_v77 = ScoreColumn.padWeight (m ((c : Thread nD τ).loc main_arg14)) := (last_weight (W6 m ρ c)).trans (by rw [arg14_W6])
  have e4 : V7 m ρ c main_v83 = ScoreColumn.padBias (m ((c : Thread nD τ).loc main_arg15)) := (last_bias (W6 m ρ c)).trans (by rw [arg15_W6])
  rw [e0, e1, e2, e3, e4]

/-- The result buffer at the last boundary is the network of the launch contents of the arguments. -/
theorem result : W9 m ρ c (Proc.devRef .tc main_v87)
    = tower (meanMul (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) (m ((c : Thread nD τ).loc main_arg15)) := by
  refine (out_column (W8 m ρ c)).trans ?_
  rw [out3]
  exact ScoreColumn.score_eq _ _ _ _ _

end Cert.KernelIdeal.Chain

end
-- ==== Proof.lean ====
/-
  A three-layer mean-aggregation graph network with a link decoder: the idealized kernel program and the idealized
  reference compute the same scores over the extended reals.

  Both programs gather node rows at the edge sources and add them up at the edge targets with the same host operations
  on the same index arrays, so the neighbourhood sums are one function of the layer's input on both sides.  The
  reference divides row `p` of the sums by `c = max (count p, 1)`; the kernel multiplies it by the quotient `1 / c`
  computed once.  Since `c ≥ 1` is not zero, both are the product with the inverse of `c` on every extended real,
  infinite entries included.  The dense part of every layer — two products with 128 × 128 weights, a bias row, an
  optional maximum with zero — is computed by the kernel in tiles of 5000 rows and by the reference on the whole
  array: each output row depends on the same row of the inputs only, the sums run over the same 128 (or 256) terms in
  the same order, and a change of float format is the identity, so the tiles are the blocks of the whole-array result.
  The decoder's output weight column and bias are padded with zeros to width 128 by the kernel program and only column
  0 of its result is kept, which is the reference's width-1 product.  No entry needs to be finite: the precondition is
  not used.

  The three frame claims are the generated frames (the reference's is its generated run with the result dropped);
  the idealization ledger is empty.
-/
import proofs.«164234_j4964982194352_1_alg».proof.Defs
import proofs.«164234_j4964982194352_1_alg».proof.Proof.Gen.Kernel
import proofs.«164234_j4964982194352_1_alg».proof.Proof.Gen.Kernel.Skeleton
import proofs.«164234_j4964982194352_1_alg».proof.Proof.Gen.Kernel.Launch
import proofs.«164234_j4964982194352_1_alg».proof.Proof.Gen.Kernel.Points
import proofs.«164234_j4964982194352_1_alg».proof.Proof.Gen.Kernel.Frame
import proofs.«164234_j4964982194352_1_alg».proof.Proof.Gen.KernelIdeal
import proofs.«164234_j4964982194352_1_alg».proof.Proof.Gen.KernelIdeal.Skeleton
import proofs.«164234_j4964982194352_1_alg».proof.Proof.Gen.KernelIdeal.Launch
import proofs.«164234_j4964982194352_1_alg».proof.Proof.Gen.KernelIdeal.Points
import proofs.«164234_j4964982194352_1_alg».proof.Proof.Gen.KernelIdeal.Frame
import proofs.«164234_j4964982194352_1_alg».proof.Proof.Gen.ReferenceIdeal
import proofs.«164234_j4964982194352_1_alg».proof.Proof.Gen.ReferenceIdeal.Run
import proofs.«164234_j4964982194352_1_alg».proof.Proof.Gen.ReferenceIdeal.Read
import proofs.«164234_j4964982194352_1_alg».proof.Proof.Gen.Pre_finite_inputs
import proofs.«164234_j4964982194352_1_alg».proof.Proof.KernelRun
import proofs.«164234_j4964982194352_1_alg».proof.Proof.KernelValue
import proofs.«164234_j4964982194352_1_alg».proof.Proof.RefSide
import Idealize.ShloMosaic.Adequacy
import Idealize.ShloMosaic.Init

set_option maxRecDepth 16384

noncomputable section

namespace Cert.Proof

open Idealize.ShloMosaic Idealize.SL.Sem
open Cert.ReferenceIdeal.Tower (tower meanMul meanDiv mean_eq ref_value)

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network `tower` with the mean by division, of the kernel's launch contents. -/
theorem algebraic : Cert.algebraic_KernelIdeal_ReferenceIdeal := by
  intro m ρ m' ρ' _ hagree
  refine ⟨fun c => tower (meanDiv (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩)
      (Cert.KernelIdeal.Whole.run_named (F := Ideal) m ρ)
    refine (Cert.KernelIdeal.Chain.result m ρ c).trans ?_
    rw [show meanMul (m ((c.tc : Thread Cert.KernelIdeal.nD Cert.KernelIdeal.τ).loc Cert.KernelIdeal.main_arg1)) = meanDiv (m ((c.tc : Thread Cert.KernelIdeal.nD Cert.KernelIdeal.τ).loc Cert.KernelIdeal.main_arg1)) from funext (mean_eq _)]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v109_eq, ref_value]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
